-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x64 : Shape := ⟨3, ![2048, 256, 64]⟩
abbrev S256x64x64 : Shape := ⟨3, ![256, 64, 64]⟩
abbrev S256x64 : Shape := ⟨2, ![256, 64]⟩
abbrev S_ : Shape := ⟨0, ![]⟩

class Facts : Prop where
  bcast_S_S2048x256x64 : S_.BroadcastsInDim S2048x256x64 (![] : Fin 0 → Fin S2048x256x64.rank)
  reducesTo_S2048x256x64_S_d0_1_2 : S2048x256x64.ReducesTo [0, 1, 2] S_
  h_S_ : 0 < S_.numel
  bcast_S_S256x64x64 : S_.BroadcastsInDim S256x64x64 (![] : Fin 0 → Fin S256x64x64.rank)
  reducesTo_S256x64x64_S_d0_1_2 : S256x64x64.ReducesTo [0, 1, 2] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S2048x256x64 .f32) (main_arg1 : FVec F S256x64x64 .f32) (main_arg2 : FVec F S256x64 .f32) (main_arg3 : FVec F S256x64 .f32) : IVec S_ 1 :=
  let main_v0 : FVec F S2048x256x64 .f32 := Host.absf main_arg0
  let main_cst : FVec F S_ .f32 := constant S_ .f32 0x7F800000#32
  let main_v1 : FVec F S2048x256x64 .f32 := broadcastInDim S2048x256x64 ![] bcast_S_S2048x256x64 main_cst
  let main_v2 : IVec S2048x256x64 1 := cmpf .olt main_v0 main_v1
  let main_c : IVec S_ 1 := constantI S_ 1 1#1
  let main_v3 : IVec S_ 1 := (fun x v => Host.reduce IntOp.andi x v reducesTo_S2048x256x64_S_d0_1_2 h_S_) main_v2 main_c
  let main_v4 : FVec F S256x64x64 .f32 := Host.absf main_arg1
  let main_cst_0 : FVec F S_ .f32 := constant S_ .f32 0x7F800000#32
  let main_v5 : FVec F S256x64x64 .f32 := broadcastInDim S256x64x64 ![] bcast_S_S256x64x64 main_cst_0
  let main_v6 : IVec S256x64x64 1 := cmpf .olt main_v4 main_v5
  let main_c_1 : IVec S_ 1 := constantI S_ 1 1#1
  let main_v7 : IVec S_ 1 := (fun x v => Host.reduce IntOp.andi x v reducesTo_S256x64x64_S_d0_1_2 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S2048x256x64 : Shape := ⟨3, ![2048, 256, 64]⟩
abbrev S256x64x64 : Shape := ⟨3, ![256, 64, 64]⟩
abbrev S256x64 : Shape := ⟨2, ![256, 64]⟩
abbrev S2048x16384 : Shape := ⟨2, ![2048, 16384]⟩
abbrev S1x16384 : Shape := ⟨2, ![1, 16384]⟩
abbrev S64x256x64 : Shape := ⟨3, ![64, 256, 64]⟩
abbrev S64x16384 : Shape := ⟨2, ![64, 16384]⟩
abbrev S1x1 : Shape := ⟨2, ![1, 1]⟩
abbrev S16384 : Shape := ⟨1, ![16384]⟩
abbrev S64 : Shape := ⟨1, ![64]⟩
abbrev S64x1 : Shape := ⟨2, ![64, 1]⟩
abbrev S1 : Shape := ⟨1, ![1]⟩
abbrev S_ : Shape := ⟨0, ![]⟩

abbrev nBuf : Space → Nat
  | .hbm => 15
  | .vmem => 7
  | .smem => 0
  | _ => 0

abbrev bufTy : (tb : Table) → Fin (tcTables nBuf tb) → BufTy
  | .hbm, ⟨0, _⟩ => ⟨S2048x256x64, .f32⟩
  | .hbm, ⟨1, _⟩ => ⟨S256x64x64, .f32⟩
  | .hbm, ⟨2, _⟩ => ⟨S256x64, .f32⟩
  | .hbm, ⟨3, _⟩ => ⟨S256x64, .f32⟩
  | .hbm, ⟨4, _⟩ => ⟨S2048x16384, .f32⟩
  | .hbm, ⟨5, _⟩ => ⟨S1x16384, .f32⟩
  | .hbm, ⟨6, _⟩ => ⟨S1x16384, .f32⟩
  | .hbm, ⟨7, _⟩ => ⟨S64x256x64, .f32⟩
  | .hbm, ⟨8, _⟩ => ⟨S64x16384, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S64x16384, .f32⟩
  | .local _ .vmem, ⟨1, _⟩ => ⟨S64x16384, .f32⟩
  | .local _ .vmem, ⟨2, _⟩ => ⟨S1x16384, .f32⟩
  | .local _ .vmem, ⟨3, _⟩ => ⟨S1x16384, .f32⟩
  | .local _ .vmem, ⟨4, _⟩ => ⟨S64x16384, .f32⟩
  | .local _ .vmem, ⟨5, _⟩ => ⟨S1x1, .f32⟩
  | .local _ .vmem, ⟨6, _⟩ => ⟨S64x16384, .f32⟩
  | _, _ => ⟨S2048x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_330 : BitVec 32 := 31#32
  let v735 : BitVec 1 := Scalar.cmpi .eq arg0 c31_i32_330
  let v736 : BitVec 32 := Scalar.extui v735
  let c0_i32_331 : BitVec 32 := 0#32
  let v737 : BitVec 1 := Scalar.cmpi .ne v736 c0_i32_331
  v737

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S2048x256x64_S2048x16384 : S2048x256x64.ShapeCasts S2048x16384
  shapeCasts_S256x64_S1x16384 : S256x64.ShapeCasts S1x16384
  transposes_S256x64x64_S64x256x64_2_0_1 : S256x64x64.Transposes [2, 0, 1] S64x256x64
  shapeCasts_S64x256x64_S64x16384 : S64x256x64.ShapeCasts S64x16384
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S1x16384_S64x16384 : S1x16384.Broadcasts S64x16384
  natLt_1_32 : 1 < 32
  reduces_S64x16384_S16384 : S64x16384.Reduces [0] S16384
  inb_S64x16384_S1x16384_0_0 : ∀ a, (![0, 0] : Fin 2 → Nat) a + S1x16384.size a ≤ S64x16384.size a
  shapeCasts_S1x16384_S16384 : S1x16384.ShapeCasts S16384
  shapeCasts_S16384_S1x16384 : S16384.ShapeCasts S1x16384
  inb_S64x16384_S1x16384_1_0 : ∀ a, (![1, 0] : Fin 2 → Nat) a + S1x16384.size a ≤ S64x16384.size a
  inb_S64x16384_S1x16384_2_0 : ∀ a, (![2, 0] : Fin 2 → Nat) a + S1x16384.size a ≤ S64x16384.size a
  inb_S64x16384_S1x16384_3_0 : ∀ a, (![3, 0] : Fin 2 → Nat) a + S1x16384.size a ≤ S64x16384.size a
  inb_S64x16384_S1x16384_4_0 : ∀ a, (![4, 0] : Fin 2 → Nat) a + S1x16384.size a ≤ S64x16384.size a
  inb_S64x16384_S1x16384_5_0 : ∀ a, (![5, 0] : Fin 2 → Nat) a + S1x16384.size a ≤ S64x16384.size a
  inb_S64x16384_S1x16384_6_0 : ∀ a, (![6, 0] : Fin 2 → Nat) a + S1x16384.size a ≤ S64x16384.size a
  inb_S64x16384_S1x16384_7_0 : ∀ a, (![7, 0] : Fin 2 → Nat) a + S1x16384.size a ≤ S64x16384.size a
  inb_S64x16384_S1x16384_8_0 : ∀ a, (![8, 0] : Fin 2 → Nat) a + S1x16384.size a ≤ S64x16384.size a
  inb_S64x16384_S1x16384_9_0 : ∀ a, (![9, 0] : Fin 2 → Nat) a + S1x16384.size a ≤ S64x16384.size a
  inb_S64x16384_S1x16384_10_0 : ∀ a, (![10, 0] : Fin 2 → Nat) a + S1x16384.size a ≤ S64x16384.size a
  inb_S64x16384_S1x16384_11_0 : ∀ a, (![11, 0] : Fin 2 → Nat) a + S1x16384.size a ≤ S64x16384.size a
  inb_S64x16384_S1x16384_12_0 : ∀ a, (![12, 0] : Fin 2 → Nat) a + S1x16384.size a ≤ S64x16384.size a
  inb_S64x16384_S1x16384_13_0 : ∀ a, (![13, 0] : Fin 2 → Nat) a + S1x16384.size a ≤ S64x16384.size a
  inb_S64x16384_S1x16384_14_0 : ∀ a, (![14, 0] : Fin 2 → Nat) a + S1x16384.size a ≤ S64x16384.size a
  inb_S64x16384_S1x16384_15_0 : ∀ a, (![15, 0] : Fin 2 → Nat) a + S1x16384.size a ≤ S64x16384.size a
  inb_S64x16384_S1x16384_16_0 : ∀ a, (![16, 0] : Fin 2 → Nat) a + S1x16384.size a ≤ S64x16384.size a
  inb_S64x16384_S1x16384_17_0 : ∀ a, (![17, 0] : Fin 2 → Nat) a + S1x16384.size a ≤ S64x16384.size a
  inb_S64x16384_S1x16384_18_0 : ∀ a, (![18, 0] : Fin 2 → Nat) a + S1x16384.size a ≤ S64x16384.size a
  inb_S64x16384_S1x16384_19_0 : ∀ a, (![19, 0] : Fin 2 → Nat) a + S1x16384.size a ≤ S64x16384.size a
  inb_S64x16384_S1x16384_20_0 : ∀ a, (![20, 0] : Fin 2 → Nat) a + S1x16384.size a ≤ S64x16384.size a
  inb_S64x16384_S1x16384_21_0 : ∀ a, (![21, 0] : Fin 2 → Nat) a + S1x16384.size a ≤ S64x16384.size a
  inb_S64x16384_S1x16384_22_0 : ∀ a, (![22, 0] : Fin 2 → Nat) a + S1x16384.size a ≤ S64x16384.size a
  inb_S64x16384_S1x16384_23_0 : ∀ a, (![23, 0] : Fin 2 → Nat) a + S1x16384.size a ≤ S64x16384.size a
  inb_S64x16384_S1x16384_24_0 : ∀ a, (![24, 0] : Fin 2 → Nat) a + S1x16384.size a ≤ S64x16384.size a
  inb_S64x16384_S1x16384_25_0 : ∀ a, (![25, 0] : Fin 2 → Nat) a + S1x16384.size a ≤ S64x16384.size a
  inb_S64x16384_S1x16384_26_0 : ∀ a, (![26, 0] : Fin 2 → Nat) a + S1x16384.size a ≤ S64x16384.size a
  inb_S64x16384_S1x16384_27_0 : ∀ a, (![27, 0] : Fin 2 → Nat) a + S1x16384.size a ≤ S64x16384.size a
  inb_S64x16384_S1x16384_28_0 : ∀ a, (![28, 0] : Fin 2 → Nat) a + S1x16384.size a ≤ S64x16384.size a
  inb_S64x16384_S1x16384_29_0 : ∀ a, (![29, 0] : Fin 2 → Nat) a + S1x16384.size a ≤ S64x16384.size a
  inb_S64x16384_S1x16384_30_0 : ∀ a, (![30, 0] : Fin 2 → Nat) a + S1x16384.size a ≤ S64x16384.size a
  inb_S64x16384_S1x16384_31_0 : ∀ a, (![31, 0] : Fin 2 → Nat) a + S1x16384.size a ≤ S64x16384.size a
  inb_S64x16384_S1x16384_32_0 : ∀ a, (![32, 0] : Fin 2 → Nat) a + S1x16384.size a ≤ S64x16384.size a
  inb_S64x16384_S1x16384_33_0 : ∀ a, (![33, 0] : Fin 2 → Nat) a + S1x16384.size a ≤ S64x16384.size a
  inb_S64x16384_S1x16384_34_0 : ∀ a, (![34, 0] : Fin 2 → Nat) a + S1x16384.size a ≤ S64x16384.size a
  inb_S64x16384_S1x16384_35_0 : ∀ a, (![35, 0] : Fin 2 → Nat) a + S1x16384.size a ≤ S64x16384.size a
  inb_S64x16384_S1x16384_36_0 : ∀ a, (![36, 0] : Fin 2 → Nat) a + S1x16384.size a ≤ S64x16384.size a
  inb_S64x16384_S1x16384_37_0 : ∀ a, (![37, 0] : Fin 2 → Nat) a + S1x16384.size a ≤ S64x16384.size a
  inb_S64x16384_S1x16384_38_0 : ∀ a, (![38, 0] : Fin 2 → Nat) a + S1x16384.size a ≤ S64x16384.size a
  inb_S64x16384_S1x16384_39_0 : ∀ a, (![39, 0] : Fin 2 → Nat) a + S1x16384.size a ≤ S64x16384.size a
  inb_S64x16384_S1x16384_40_0 : ∀ a, (![40, 0] : Fin 2 → Nat) a + S1x16384.size a ≤ S64x16384.size a
  inb_S64x16384_S1x16384_41_0 : ∀ a, (![41, 0] : Fin 2 → Nat) a + S1x16384.size a ≤ S64x16384.size a
  inb_S64x16384_S1x16384_42_0 : ∀ a, (![42, 0] : Fin 2 → Nat) a + S1x16384.size a ≤ S64x16384.size a
  inb_S64x16384_S1x16384_43_0 : ∀ a, (![43, 0] : Fin 2 → Nat) a + S1x16384.size a ≤ S64x16384.size a
  inb_S64x16384_S1x16384_44_0 : ∀ a, (![44, 0] : Fin 2 → Nat) a + S1x16384.size a ≤ S64x16384.size a
  inb_S64x16384_S1x16384_45_0 : ∀ a, (![45, 0] : Fin 2 → Nat) a + S1x16384.size a ≤ S64x16384.size a
  inb_S64x16384_S1x16384_46_0 : ∀ a, (![46, 0] : Fin 2 → Nat) a + S1x16384.size a ≤ S64x16384.size a
  inb_S64x16384_S1x16384_47_0 : ∀ a, (![47, 0] : Fin 2 → Nat) a + S1x16384.size a ≤ S64x16384.size a
  inb_S64x16384_S1x16384_48_0 : ∀ a, (![48, 0] : Fin 2 → Nat) a + S1x16384.size a ≤ S64x16384.size a
  inb_S64x16384_S1x16384_49_0 : ∀ a, (![49, 0] : Fin 2 → Nat) a + S1x16384.size a ≤ S64x16384.size a
  inb_S64x16384_S1x16384_50_0 : ∀ a, (![50, 0] : Fin 2 → Nat) a + S1x16384.size a ≤ S64x16384.size a
  inb_S64x16384_S1x16384_51_0 : ∀ a, (![51, 0] : Fin 2 → Nat) a + S1x16384.size a ≤ S64x16384.size a
  inb_S64x16384_S1x16384_52_0 : ∀ a, (![52, 0] : Fin 2 → Nat) a + S1x16384.size a ≤ S64x16384.size a
  inb_S64x16384_S1x16384_53_0 : ∀ a, (![53, 0] : Fin 2 → Nat) a + S1x16384.size a ≤ S64x16384.size a
  inb_S64x16384_S1x16384_54_0 : ∀ a, (![54, 0] : Fin 2 → Nat) a + S1x16384.size a ≤ S64x16384.size a
  inb_S64x16384_S1x16384_55_0 : ∀ a, (![55, 0] : Fin 2 → Nat) a + S1x16384.size a ≤ S64x16384.size a
  inb_S64x16384_S1x16384_56_0 : ∀ a, (![56, 0] : Fin 2 → Nat) a + S1x16384.size a ≤ S64x16384.size a
  inb_S64x16384_S1x16384_57_0 : ∀ a, (![57, 0] : Fin 2 → Nat) a + S1x16384.size a ≤ S64x16384.size a
  inb_S64x16384_S1x16384_58_0 : ∀ a, (![58, 0] : Fin 2 → Nat) a + S1x16384.size a ≤ S64x16384.size a
  inb_S64x16384_S1x16384_59_0 : ∀ a, (![59, 0] : Fin 2 → Nat) a + S1x16384.size a ≤ S64x16384.size a
  inb_S64x16384_S1x16384_60_0 : ∀ a, (![60, 0] : Fin 2 → Nat) a + S1x16384.size a ≤ S64x16384.size a
  inb_S64x16384_S1x16384_61_0 : ∀ a, (![61, 0] : Fin 2 → Nat) a + S1x16384.size a ≤ S64x16384.size a
  inb_S64x16384_S1x16384_62_0 : ∀ a, (![62, 0] : Fin 2 → Nat) a + S1x16384.size a ≤ S64x16384.size a
  inb_S64x16384_S1x16384_63_0 : ∀ a, (![63, 0] : Fin 2 → Nat) a + S1x16384.size a ≤ S64x16384.size a
  reduces_S64x16384_S64 : S64x16384.Reduces [1] S64
  shapeCasts_S64_S64x1 : S64.ShapeCasts S64x1
  reduces_S64x1_S1 : S64x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S2048x16384.size a
  hwx0_0 : ∀ i : grid0.Coords, EltTy.bits .f32 = 32 ∨ (Rect.block (s := S2048x16384) S64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .f32 = 32 ∨ (Rect.block (s := S1x16384) S1x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x16384.size a
  hwx0_2 : ∀ i : grid0.Coords, EltTy.bits .f32 = 32 ∨ (Rect.block (s := S1x16384) S1x16384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16384.size a ≤ S64x16384.size a
  hwx0_3 : ∀ i : grid0.Coords, EltTy.bits .f32 = 32 ∨ (Rect.block (s := S64x16384) S64x16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x256x64 : Shape := ⟨3, ![2048, 256, 64]⟩
abbrev S256x64x64 : Shape := ⟨3, ![256, 64, 64]⟩
abbrev S256x64 : Shape := ⟨2, ![256, 64]⟩
abbrev S1x256x64 : Shape := ⟨3, ![1, 256, 64]⟩
abbrev S_ : Shape := ⟨0, ![]⟩
abbrev S256 : Shape := ⟨1, ![256]⟩
abbrev S256x1 : Shape := ⟨2, ![256, 1]⟩
abbrev S64 : Shape := ⟨1, ![64]⟩
abbrev S1x64 : Shape := ⟨2, ![1, 64]⟩
abbrev S33554432 : Shape := ⟨1, ![33554432]⟩
abbrev S1048576 : Shape := ⟨1, ![1048576]⟩
abbrev S33554432x1 : Shape := ⟨2, ![33554432, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x256x64, .f32⟩
  | .hbm, ⟨1, _⟩ => ⟨S256x64x64, .f32⟩
  | .hbm, ⟨2, _⟩ => ⟨S256x64, .f32⟩
  | .hbm, ⟨3, _⟩ => ⟨S256x64, .f32⟩
  | .hbm, ⟨4, _⟩ => ⟨S256x64, .f32⟩
  | .hbm, ⟨5, _⟩ => ⟨S1x256x64, .f32⟩
  | .hbm, ⟨6, _⟩ => ⟨S2048x256x64, .f32⟩
  | .hbm, ⟨7, _⟩ => ⟨S2048x256x64, .f32⟩
  | .hbm, ⟨8, _⟩ => ⟨S1x256x64, .f32⟩
  | .hbm, ⟨9, _⟩ => ⟨S2048x256x64, .f32⟩
  | .hbm, ⟨10, _⟩ => ⟨S2048x256x64, .f32⟩
  | .hbm, ⟨11, _⟩ => ⟨S_, .f32⟩
  | .hbm, ⟨12, _⟩ => ⟨S2048x256x64, .f32⟩
  | .hbm, ⟨13, _⟩ => ⟨S2048x256x64, .f32⟩
  | .hbm, ⟨14, _⟩ => ⟨S2048x256x64, .f32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S2048x256x64, .f32⟩
  | .hbm, ⟨19, _⟩ => ⟨S2048x256x64, .f32⟩
  | .hbm, ⟨20, _⟩ => ⟨S_, .f32⟩
  | .hbm, ⟨21, _⟩ => ⟨S2048x256x64, .f32⟩
  | .hbm, ⟨22, _⟩ => ⟨S2048x256x64, .f32⟩
  | .hbm, ⟨23, _⟩ => ⟨S2048x256x64, .i32⟩
  | .hbm, ⟨24, _⟩ => ⟨S1x256x64, .f32⟩
  | .hbm, ⟨25, _⟩ => ⟨S2048x256x64, .f32⟩
  | .hbm, ⟨26, _⟩ => ⟨S2048x256x64, .i1⟩
  | .hbm, ⟨27, _⟩ => ⟨S1x256x64, .f32⟩
  | .hbm, ⟨28, _⟩ => ⟨S2048x256x64, .f32⟩
  | .hbm, ⟨29, _⟩ => ⟨S2048x256x64, .i1⟩
  | .hbm, ⟨30, _⟩ => ⟨S2048x256x64, .i1⟩
  | .hbm, ⟨31, _⟩ => ⟨S2048x256x64, .f32⟩
  | .hbm, ⟨32, _⟩ => ⟨S256, .i32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i32⟩
  | .hbm, ⟨37, _⟩ => ⟨S64, .i32⟩
  | .hbm, ⟨38, _⟩ => ⟨S1x64, .i32⟩
  | .hbm, ⟨39, _⟩ => ⟨S256x64, .i32⟩
  | .hbm, ⟨40, _⟩ => ⟨S256x64, .i32⟩
  | .hbm, ⟨41, _⟩ => ⟨S256x64, .i32⟩
  | .hbm, ⟨42, _⟩ => ⟨S_, .i32⟩
  | .hbm, ⟨43, _⟩ => ⟨S256x64, .i32⟩
  | .hbm, ⟨44, _⟩ => ⟨S256x64, .i32⟩
  | .hbm, ⟨45, _⟩ => ⟨S1x256x64, .i32⟩
  | .hbm, ⟨46, _⟩ => ⟨S2048x256x64, .i32⟩
  | .hbm, ⟨47, _⟩ => ⟨S2048x256x64, .i32⟩
  | .hbm, ⟨48, _⟩ => ⟨S33554432, .i32⟩
  | .hbm, ⟨49, _⟩ => ⟨S33554432, .f32⟩
  | .hbm, ⟨50, _⟩ => ⟨S_, .f32⟩
  | .hbm, ⟨51, _⟩ => ⟨S1048576, .f32⟩
  | .hbm, ⟨52, _⟩ => ⟨S33554432x1, .i32⟩
  | .hbm, ⟨53, _⟩ => ⟨S1048576, .f32⟩
  | .hbm, ⟨54, _⟩ => ⟨S256x64x64, .f32⟩
  | .hbm, ⟨55, _⟩ => ⟨S_, .f32⟩
  | .hbm, ⟨56, _⟩ => ⟨S256x64x64, .f32⟩
  | .hbm, ⟨57, _⟩ => ⟨S256x64x64, .f32⟩
  | .hbm, ⟨58, _⟩ => ⟨S256x64x64, .f32⟩
  | .hbm, ⟨59, _⟩ => ⟨S256x64x64, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S2048x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S256x64_S1x256x64_1_2 : S256x64.BroadcastsInDim S1x256x64 (![1, 2] : Fin 2 → Fin S1x256x64.rank)
  bcast_S1x256x64_S2048x256x64_0_1_2 : S1x256x64.BroadcastsInDim S2048x256x64 (![0, 1, 2] : Fin 3 → Fin S2048x256x64.rank)
  bcast_S_S2048x256x64 : S_.BroadcastsInDim S2048x256x64 (![] : Fin 0 → Fin S2048x256x64.rank)
  bcast_S256_S256x1_0 : S256.BroadcastsInDim S256x1 (![0] : Fin 1 → Fin S256x1.rank)
  bcast_S_S256x1 : S_.BroadcastsInDim S256x1 (![] : Fin 0 → Fin S256x1.rank)
  bcast_S64_S1x64_1 : S64.BroadcastsInDim S1x64 (![1] : Fin 1 → Fin S1x64.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  shapeCasts_S2048x256x64_S33554432 : S2048x256x64.ShapeCasts S33554432
  bcast_S_S1048576 : S_.BroadcastsInDim S1048576 (![] : Fin 0 → Fin S1048576.rank)
  bcast_S33554432_S33554432x1_0 : S33554432.BroadcastsInDim S33554432x1 (![0] : Fin 1 → Fin S33554432x1.rank)
  shapeCasts_S1048576_S256x64x64 : S1048576.ShapeCasts S256x64x64
  bcast_S_S256x64x64 : S_.BroadcastsInDim S256x64x64 (![] : Fin 0 → Fin S256x64x64.rank)
  reducesTo_S256x64x64_S_d0_1_2 : S256x64x64.ReducesTo [0, 1, 2] S_
  h_S_ : 0 < S_.numel
  scatter_S1048576_S33554432x1_S33554432_n_0_0_1_wf : ScatterDims.WF S1048576 S33554432x1 S33554432 [] [0] [0] 1

variable [Facts₀]

def scatter_S1048576_S33554432x1_S33554432_n_0_0_1 : ScatterDims S1048576 S33554432x1 S33554432 where
  updateWindowDims := []
  insertedWindowDims := [0]
  scatterDimsToOperandDims := [0]
  indexVectorDim := 1
  wf := scatter_S1048576_S33554432x1_S33554432_n_0_0_1_wf

class Facts : Prop extends Facts₀ where

variable [Facts]
-- ==== Proof.HistSpec.lean ====
/-
  The histogram loss as one function of the four argument arrays, over the extended reals.

  A sample x of the pair (t, d) with edges a = lo (t, d), b = hi (t, d) falls in bin
  clip (floor ((x - a) / (b - a) * 64), 0, 63) and counts 1 when a ≤ x ≤ b, else 0.  The histogram entry
  H (t, d, c) is the sum over the 2048 samples of the counts of those whose bin is c; the loss is the sum over
  (t, d, c) of |H (t, d, c) / 2048 - dens (t, d, c)|, divided by 256 * 64 * 64.
  The same numbers in the layout a tile-by-tile accumulation uses ([bin, t * 64 + d] blocks, 64 samples per tile)
  are `stepAt` (one tile added to a histogram block) and `finishAt` (the sum of absolute differences of a block).
-/
import Idealize.ShloMosaic.PureOps.Ideal
import Idealize.ShloMosaic.Lib.ValueIdx

noncomputable section

open scoped BigOperators

namespace Cert.HistSpec

open Idealize.ShloMosaic Idealize.ShloMosaic.ValueIdx

/-- The bin of a sample `x` between the edges `a` and `b`, as a 32-bit word: the scaled position's floor, clipped to
    [0, 63] (so every extended real lands in a bin), then converted. -/
def binW (x a b : EReal) : BitVec 32 :=
  Ideal.fptosi 32 (min ((((63#32 : BitVec 32).toInt : ℝ)) : EReal) (max ((((0#32 : BitVec 32).toInt : ℝ)) : EReal)
    (Ideal.liftRound Int.floor (Ideal.div (x - a) (b - a) * Ideal.ofBits .f32 0x42800000#32))))

/-- 1 when `a ≤ x ≤ b`, else 0. -/
def inRange (x a b : EReal) : EReal :=
  (((IntOp.andi (Ideal.cmp .oge x a) (Ideal.cmp .ole x b)).toNat : ℝ) : EReal)

/-- What the sample `x` adds to bin `k`: its in-range count when its bin is `k`, else 0. -/
def contrib (k : BitVec 32) (x a b : EReal) : EReal :=
  Scalar.select (IntOp.cmpi .eq (binW x a b) k) (inRange x a b) (Ideal.ofBits .f32 0x00000000#32)

/-- The histogram of the samples `X (·, t, d)` between `lo (t, d)` and `hi (t, d)` at bin `c`. -/
def hist (X : (⟨3, ![2048, 256, 64]⟩ : Shape).Idx → EReal) (lo hi : (⟨2, ![256, 64]⟩ : Shape).Idx → EReal)
    (t : Fin 256) (d : Fin 64) (c : Fin 64) : EReal :=
  ∑ n : Fin 2048, contrib (BitVec.ofNat 32 c.val) (X (ix3 n t d)) (lo (ix2 t d)) (hi (ix2 t d))

/-- |y| on the extended reals. -/
def eabs (y : EReal) : EReal := max y (-y)

/-- The sum over (t, d, c) of |H (t, d, c) · 2⁻¹¹ − dens (t, d, c)|. -/
def total (X : (⟨3, ![2048, 256, 64]⟩ : Shape).Idx → EReal) (dens : (⟨3, ![256, 64, 64]⟩ : Shape).Idx → EReal)
    (lo hi : (⟨2, ![256, 64]⟩ : Shape).Idx → EReal) : EReal :=
  ∑ t : Fin 256, ∑ d : Fin 64, ∑ c : Fin 64,
    eabs (hist X lo hi t d c * Ideal.ofBits .f32 0x3A000000#32 - dens (ix3 t d c))

/-- The loss: the total divided by 2²⁰, times 1. -/
def loss (X : (⟨3, ![2048, 256, 64]⟩ : Shape).Idx → EReal) (dens : (⟨3, ![256, 64, 64]⟩ : Shape).Idx → EReal)
    (lo hi : (⟨2, ![256, 64]⟩ : Shape).Idx → EReal) : EReal :=
  Ideal.ofBits .f32 0x3F800000#32 * Ideal.div (total X dens lo hi) (Ideal.ofBits .f32 0x49800000#32)

/-! ## The same in the accumulation's layout -/

/-- One tile of 64 samples per column added to a histogram block `acc` ([bin, column]) at bin `c`, column `q`. -/
def stepAt (acc x : (⟨2, ![64, 16384]⟩ : Shape).Idx → EReal) (a b : (⟨2, ![1, 16384]⟩ : Shape).Idx → EReal)
    (c : Fin 64) (q : Fin 16384) : EReal :=
  acc (ix2 c q) + ∑ r : Fin 64, contrib (BitVec.ofNat 32 c.val) (x (ix2 r q)) (a (ix2 0 q)) (b (ix2 0 q))

/-- The block after one tile. -/
def stepK (acc x : (⟨2, ![64, 16384]⟩ : Shape).Idx → EReal) (a b : (⟨2, ![1, 16384]⟩ : Shape).Idx → EReal) :
    (⟨2, ![64, 16384]⟩ : Shape).Idx → EReal :=
  fun j => stepAt acc x a b ⟨(j 0).val, (j 0).isLt⟩ ⟨(j 1).val, (j 1).isLt⟩

theorem stepK_ix2 (acc x : (⟨2, ![64, 16384]⟩ : Shape).Idx → EReal) (a b : (⟨2, ![1, 16384]⟩ : Shape).Idx → EReal)
    (c : Fin 64) (q : Fin 16384) : stepK acc x a b (ix2 c q) = stepAt acc x a b c q := rfl

/-- The sum over bins and columns of |h · 2⁻¹¹ − dn| of a finished histogram block `h` against the densities `dn` in
    the same layout. -/
def finishK (h dn : (⟨2, ![64, 16384]⟩ : Shape).Idx → EReal) : EReal :=
  ∑ c : Fin 64, ∑ q : Fin 16384, eabs (h (ix2 c q) * Ideal.ofBits .f32 0x3A000000#32 - dn (ix2 c q))

/-! ## The arguments in that layout, and the accumulation over the 32 tiles -/

/-- Column `q = t * 64 + d` of the flattened (t, d) pairs: its `t` … -/
abbrev tq (q : Fin 16384) : Fin 256 := ⟨q.val / 64, by omega⟩
/-- … and its `d`. -/
abbrev dq (q : Fin 16384) : Fin 64 := ⟨q.val % 64, by omega⟩

/-- Tile `t` of the samples: rows `64 t … 64 t + 63` of the [2048, 256 · 64] matrix of samples. -/
def tileOf (X : (⟨3, ![2048, 256, 64]⟩ : Shape).Idx → EReal) (t : ℕ) : (⟨2, ![64, 16384]⟩ : Shape).Idx → EReal :=
  fun j => X (ix3 ⟨(64 * t + (j 0).val) % 2048, Nat.mod_lt _ (by norm_num)⟩
    (tq ⟨(j 1).val, (j 1).isLt⟩) (dq ⟨(j 1).val, (j 1).isLt⟩))

/-- An edge array ([256, 64]) as one row of 16384 columns. -/
def edgeRow (e : (⟨2, ![256, 64]⟩ : Shape).Idx → EReal) : (⟨2, ![1, 16384]⟩ : Shape).Idx → EReal :=
  fun j => e (ix2 (tq ⟨(j 1).val, (j 1).isLt⟩) (dq ⟨(j 1).val, (j 1).isLt⟩))

/-- The densities ([256, 64, 64] = (t, d, bin)) as a [bin, t · 64 + d] block. -/
def densK (dens : (⟨3, ![256, 64, 64]⟩ : Shape).Idx → EReal) : (⟨2, ![64, 16384]⟩ : Shape).Idx → EReal :=
  fun j => dens (ix3 (tq ⟨(j 1).val, (j 1).isLt⟩) (dq ⟨(j 1).val, (j 1).isLt⟩) ⟨(j 0).val, (j 0).isLt⟩)

/-- The histogram block after tiles `0 … n`, accumulated tile by tile from zero. -/
def accK (X : (⟨3, ![2048, 256, 64]⟩ : Shape).Idx → EReal) (lo hi : (⟨2, ![256, 64]⟩ : Shape).Idx → EReal) :
    ℕ → (⟨2, ![64, 16384]⟩ : Shape).Idx → EReal
  | 0 => stepK (fun _ => Ideal.ofBits .f32 0x00000000#32) (tileOf X 0) (edgeRow lo) (edgeRow hi)
  | n + 1 => stepK (accK X lo hi n) (tileOf X (n + 1)) (edgeRow lo) (edgeRow hi)

/-- The loss as the tile-by-tile accumulation computes it. -/
def lossK (X : (⟨3, ![2048, 256, 64]⟩ : Shape).Idx → EReal) (dens : (⟨3, ![256, 64, 64]⟩ : Shape).Idx → EReal)
    (lo hi : (⟨2, ![256, 64]⟩ : Shape).Idx → EReal) : EReal :=
  Ideal.ofBits .f32 0x3F800000#32
    * Ideal.div (finishK (accK X lo hi 31) (densK dens)) (Ideal.ofBits .f32 0x49800000#32)

end Cert.HistSpec

end
-- ==== Proof.KernelInputs.lean ====
/-
  What the kernel's region finds in its four input windows.  The host lines before the region reshape the samples
  [2048, 256, 64] to [2048, 256 · 64], the two edge arrays [256, 64] to one row [1, 256 · 64], and transpose the
  densities [256, 64, 64] = (t, d, bin) to (bin, t, d) and flatten them to [64, 256 · 64].  Window 0's block at grid
  point t is rows 64 t … 64 t + 63 of the samples; the other three windows' blocks are their whole arrays at every point.
  Each is read here at an index as the specification's tile, edge row and densities block: a reshape keeps the
  row-major position, so column q = t · 64 + d of the flattened axis is the pair (q / 64, q % 64).
-/
import proofs.«148183_j63806034149742_1_alg».proof.Proof.Gen.KernelIdeal.Frame
import proofs.«148183_j63806034149742_1_alg».proof.Proof.HistSpec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HistRun

open Cert.KernelIdeal Cert.KernelIdeal.Gen Cert.HistSpec

variable (m : (ℓ : Loc nD τ sig) → Buf (Elt Ideal) ℓ) (ρ : Dev nD → PrngReg)

/-- The samples as the region finds them: reshaped to [2048, 256 · 64]. -/
theorem V_v0 (c : Dev nD) : (V m c main_v0 : S2048x16384.Idx → EReal)
    = shapeCast S2048x16384 (m ((c : Thread nD τ).loc main_arg0)) shapeCasts_S2048x256x64_S2048x16384 := by
  show StableHlo.after hostOps0 (fun b => m (c, b)) (Proc.devRef .tc main_v0) = _
  after_results
  rfl

/-- The lower edges as the region finds them: reshaped to one row [1, 256 · 64]. -/
theorem V_v1 (c : Dev nD) : (V m c main_v1 : S1x16384.Idx → EReal)
    = shapeCast S1x16384 (m ((c : Thread nD τ).loc main_arg2)) shapeCasts_S256x64_S1x16384 := by
  show StableHlo.after hostOps0 (fun b => m (c, b)) (Proc.devRef .tc main_v1) = _
  after_results
  rfl

/-- The upper edges likewise. -/
theorem V_v2 (c : Dev nD) : (V m c main_v2 : S1x16384.Idx → EReal)
    = shapeCast S1x16384 (m ((c : Thread nD τ).loc main_arg3)) shapeCasts_S256x64_S1x16384 := by
  show StableHlo.after hostOps0 (fun b => m (c, b)) (Proc.devRef .tc main_v2) = _
  after_results
  rfl

/-- The densities as the region finds them: transposed to (bin, t, d), then reshaped to [64, 256 · 64]. -/
theorem V_v4 (c : Dev nD) : (V m c main_v4 : S64x16384.Idx → EReal)
    = shapeCast S64x16384 (transpose S64x256x64 [2, 0, 1] (m ((c : Thread nD τ).loc main_arg1)) transposes_S256x64x64_S64x256x64_2_0_1) shapeCasts_S64x256x64_S64x16384 := by
  show StableHlo.after hostOps0 (fun b => m (c, b)) (Proc.devRef .tc main_v4) = _
  after_results
  rfl

/-- Window 0's block at grid point t is block (t, 0) of the samples matrix. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Tile `t` of the samples: the block of the [2048, 16384] reshape of the samples at rows 64 t … 64 t + 63. -/
theorem iblk0_eq (c : Dev nD) (t : Fin cfg0.N) :
    (iblk m c 0 t : S64x16384.Idx → EReal) = tileOf (m ((c : Thread nD τ).loc main_arg0)) t.val := by
  have hN : cfg0.N = 32 := N_0
  have ht := t.isLt
  obtain ⟨h0, h1⟩ := idx0 t
  funext j
  unfold iblk
  rw [View.read_apply]
  show V m c main_v0 _ = _
  rw [V_v0]
  unfold tileOf
  refine shapeCast_apply _ _ _ _ ?_
  refine (Shape.rowMajor_val_three (d := ![2048, 256, 64]) _).trans
    (Eq.trans ?_ (Shape.rowMajor_val_two (d := ![2048, 16384]) _).symm)
  have hj0 : (j 0).val < 64 := (j 0).isLt
  have hj1 : (j 1).val < 16384 := (j 1).isLt
  show ((64 * t.val + (j 0).val) % 2048 * 256 + (j 1).val / 64) * 64 + (j 1).val % 64
      = (win0_0.index t 0 * 64 + 1 * (j 0).val) * 16384 + (win0_0.index t 1 * 16384 + 1 * (j 1).val)
  rw [h0, h1]
  omega

/-- The other three input windows' block index never moves: block (0, 0), the whole array. -/
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

/-- The lower edges as the kernel's window finds them: one row of 16384 columns, column t · 64 + d holding lo (t, d). -/
theorem iblk1_eq (c : Dev nD) (t : Fin cfg0.N) :
    (iblk m c 1 t : S1x16384.Idx → EReal) = edgeRow (m ((c : Thread nD τ).loc main_arg2)) := by
  obtain ⟨h0, h1⟩ := idx1 t
  funext j
  unfold iblk
  rw [View.read_apply]
  show V m c main_v1 _ = _
  rw [V_v1]
  unfold edgeRow
  refine shapeCast_apply _ _ _ _ ?_
  refine (Shape.rowMajor_val_two (d := ![256, 64]) _).trans
    (Eq.trans ?_ (Shape.rowMajor_val_two (d := ![1, 16384]) _).symm)
  have hj0 : (j 0).val < 1 := (j 0).isLt
  have hj1 : (j 1).val < 16384 := (j 1).isLt
  show (j 1).val / 64 * 64 + (j 1).val % 64
      = (win0_1.index t 0 * 1 + 1 * (j 0).val) * 16384 + (win0_1.index t 1 * 16384 + 1 * (j 1).val)
  rw [h0, h1]
  omega

/-- The upper edges likewise. -/
theorem iblk2_eq (c : Dev nD) (t : Fin cfg0.N) :
    (iblk m c 2 t : S1x16384.Idx → EReal) = edgeRow (m ((c : Thread nD τ).loc main_arg3)) := by
  obtain ⟨h0, h1⟩ := idx2 t
  funext j
  unfold iblk
  rw [View.read_apply]
  show V m c main_v2 _ = _
  rw [V_v2]
  unfold edgeRow
  refine shapeCast_apply _ _ _ _ ?_
  refine (Shape.rowMajor_val_two (d := ![256, 64]) _).trans
    (Eq.trans ?_ (Shape.rowMajor_val_two (d := ![1, 16384]) _).symm)
  have hj0 : (j 0).val < 1 := (j 0).isLt
  have hj1 : (j 1).val < 16384 := (j 1).isLt
  show (j 1).val / 64 * 64 + (j 1).val % 64
      = (win0_2.index t 0 * 1 + 1 * (j 0).val) * 16384 + (win0_2.index t 1 * 16384 + 1 * (j 1).val)
  rw [h0, h1]
  omega

/-- The densities as the kernel's window finds them: transposed to (bin, t, d) and flattened to [bin, t · 64 + d]. -/
theorem iblk3_eq (c : Dev nD) (t : Fin cfg0.N) :
    (iblk m c 3 t : S64x16384.Idx → EReal) = densK (m ((c : Thread nD τ).loc main_arg1)) := by
  obtain ⟨h0, h1⟩ := idx3 t
  funext j
  unfold iblk
  rw [View.read_apply]
  show V m c main_v4 _ = _
  rw [V_v4]
  unfold densK
  have hj0 : (j 0).val < 64 := (j 0).isLt
  have hj1 : (j 1).val < 16384 := (j 1).isLt
  refine (shapeCast_apply _ _ _
    (ix3 (⟨(j 0).val, hj0⟩ : Fin 64) (tq ⟨(j 1).val, hj1⟩) (dq ⟨(j 1).val, hj1⟩)) ?_).trans ?_
  · refine (Shape.rowMajor_val_three (d := ![64, 256, 64]) _).trans
      (Eq.trans ?_ (Shape.rowMajor_val_two (d := ![64, 16384]) _).symm)
    show ((j 0).val * 256 + (j 1).val / 64) * 64 + (j 1).val % 64
        = (win0_3.index t 0 * 64 + 1 * (j 0).val) * 16384 + (win0_3.index t 1 * 16384 + 1 * (j 1).val)
    rw [h0, h1]
    omega
  · refine transpose_apply [2, 0, 1] _ _ _ _ ?_
    intro b
    match b with
    | ⟨0, _⟩ => rfl
    | ⟨1, _⟩ => rfl
    | ⟨2, _⟩ => rfl

end Cert.KernelIdeal.HistRun
end
-- ==== Proof.KernelPieces.lean ====
/-
  What the kernel body leaves in its carried histogram block and in its output, case by case, as the
  specification's step and finish.

  Each of the 64 bins k stores, over row k of the block, the row it loaded plus the sum over the 64 sample rows of
  the in-range counts of the samples whose bin word is k.  Read at column q that is
  acc (k, q) + ∑ r, contrib k (x (r, q)) (a (0, q)) (b (0, q)): the specification's step at (k, q).  The 64 rows
  tile the block, so the block the body leaves is the step of the block it found.
-/
import proofs.«148183_j63806034149742_1_alg».proof.Proof.Gen.KernelIdeal.Frame
import proofs.«148183_j63806034149742_1_alg».proof.Proof.HistSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelPieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- Reducing over the sample rows: the index (r, q) over column q. -/
theorem lift_row (q : Fin 16384) (r : Fin 64) :
    (reduces_S64x16384_S16384.lift (ix1 q) r : S64x16384.Idx) = ix2 r q :=
  funext fun a => match a with | ⟨0, _⟩ => Fin.ext rfl | ⟨1, _⟩ => Fin.ext rfl

/-- One bin's stored row at column q: the loaded row there plus the sum over the 64 sample rows of the selected counts. -/
theorem row_at (V23 : IVec S64x16384 32) (V30 : FVec Ideal S64x16384 .f32) (K : BitVec 32)
    (LOAD : Vec Ideal S1x16384 .f32) (q : Fin 16384) :
    (shapeCast S1x16384 (addf (shapeCast S16384 LOAD shapeCasts_S1x16384_S16384)
      (multiReduction .add [0] S16384 (select (cmpi .eq V23 (broadcast S64x16384 K)) V30
        (broadcast S64x16384 (Scalar.ofBits .f32 0x00000000#32))) 0x00000000#32 reduces_S64x16384_S16384 (.inl rfl) rfl))
      shapeCasts_S16384_S1x16384 : FVec Ideal S1x16384 .f32) (ix2 0 q)
    = LOAD (ix2 0 q) + ∑ r : Fin 64, Scalar.select (IntOp.cmpi .eq (V23 (ix2 r q)) K) (V30 (ix2 r q)) (Ideal.ofBits .f32 0x00000000#32) := by
  refine (shapeCast_apply _ _ (ix2 0 q) (ix1 q) ?_).trans ?_
  · rw [Shape.rowMajor_val_one, Shape.rowMajor_val_two]; show q.val = 0 * 16384 + q.val; omega
  refine (addf_apply _ _ _).trans ?_
  refine congrArg₂ (· + ·) ?_ ?_
  · refine shapeCast_apply _ _ (ix1 q) (ix2 0 q) ?_
    rw [Shape.rowMajor_val_one, Shape.rowMajor_val_two]; show 0 * 16384 + q.val = q.val; omega
  · refine (Ideal.multiReduction_add_single _ _ _ _ _ (ix1 q)).trans ?_
    refine Finset.sum_congr rfl fun r _ => ?_
    refine (congrArg (select (cmpi CmpIPredicate.eq V23 (broadcast S64x16384 K)) V30 (broadcast S64x16384 (FloatOps.ofBits (F := Ideal) FTy.f32 0#32))) (lift_row q r)).trans ?_
    rfl

section At
variable {s : Shape} {φ : FTy}
theorem fptosi_at (w : Nat) (v : FVec Ideal s φ) (i : s.Idx) : fptosi w v i = Ideal.fptosi w (v i) := rfl
theorem floor_at (v : FVec Ideal s φ) (i : s.Idx) : floor v i = Ideal.liftRound Int.floor (v i) := rfl
theorem andi_at {w : Nat} (a b : IVec s w) (i : s.Idx) : andi a b i = IntOp.andi (a i) (b i) := rfl
theorem cmpf_at (p : CmpFPredicate) (a b : FVec Ideal s φ) (i : s.Idx) : cmpf p a b i = Ideal.cmp p (a i) (b i) := rfl
theorem sitofp_at {w : Nat} (x : IVec s w) (i : s.Idx) : (sitofp φ x : FVec Ideal s φ) i = (((x i).toInt : ℝ) : EReal) := rfl
theorem absf_at (v : FVec Ideal s φ) (i : s.Idx) : absf v i = max (v i) (-(v i)) := rfl
end At

/-- A one-bit word widened to 32 bits reads, as a signed integer, its own value 0 or 1. -/
theorem bit_toInt (w : BitVec 1) : (((w.setWidth 32).toInt : ℝ) : EReal) = ((w.toNat : ℝ) : EReal) := by
  have h : (w.setWidth 32).toInt = (w.toNat : ℤ) := by
    by_cases h : w = 1#1
    · subst h; decide
    · obtain rfl := eq_zero_of_ne_one h; decide
  rw [h, Int.cast_natCast]

/-- A row broadcast down the 64 sample rows reads the row at its column. -/
theorem bcast_row (v : FVec Ideal S1x16384 .f32) (r : Fin 64) (q : Fin 16384) :
    broadcastTo S64x16384 v broadcasts_S1x16384_S64x16384 (ix2 r q) = v (ix2 0 q) :=
  broadcastTo_apply v _ (ix2 r q) (ix2 0 q) (fun a => match a with | ⟨0, _⟩ => rfl | ⟨1, _⟩ => rfl)

/-- The bin words at (r, q): the specification's bin of the sample there between the column's edges. -/
theorem pay6_at (x0 : Vec Ideal S64x16384 .f32) (x1 x2 : Vec Ideal S1x16384 .f32) (r : Fin 64) (q : Fin 16384) :
    k0_pay6 (F := Ideal) x0 x1 x2 (ix2 r q) = Cert.HistSpec.binW (x0 (ix2 r q)) (x1 (ix2 0 q)) (x2 (ix2 0 q)) := by
  unfold k0_pay6 k0_pay3 k0_pay4 k0_pay5 Cert.HistSpec.binW
  simp only [shapeCast_self, fptosi_at, minimumf_apply, maximumf_apply, floor_at, mulf_apply, divf_apply, subf_apply,
    broadcast_apply, bcast_row, Ideal.scalar_sitofp_def, Ideal.ofBits_def]

/-- The in-range counts at (r, q). -/
theorem pay7_at (x0 : Vec Ideal S64x16384 .f32) (x1 x2 : Vec Ideal S1x16384 .f32) (r : Fin 64) (q : Fin 16384) :
    k0_pay7 (F := Ideal) x0 x1 x2 (ix2 r q) = Cert.HistSpec.inRange (x0 (ix2 r q)) (x1 (ix2 0 q)) (x2 (ix2 0 q)) := by
  unfold k0_pay7 k0_pay3 k0_pay4 k0_pay5 Cert.HistSpec.inRange
  simp only [shapeCast_self, sitofp_at, extui_apply, andi_at, cmpf_at, bcast_row]
  exact bit_toInt _

/-- An index of a one-row block is (0, q). -/
theorem row_idx (x : S1x16384.Idx) : ∃ q : Fin 16384, x = ix2 0 q :=
  ⟨⟨(x 1).val, (x 1).isLt⟩, funext fun a => match a with
    | ⟨0, h⟩ => Fin.ext (by
        have h0 : (x ⟨0, h⟩).val < 1 := (x ⟨0, h⟩).isLt
        show (x ⟨0, h⟩).val = 0
        omega)
    | ⟨1, _⟩ => Fin.ext rfl⟩

/-- Row k of a [64, 16384] block lies inside it. -/
theorem inb_row (k : ℕ) (hk : k < 64) :
    ∀ a, (![k, 0] : Fin 2 → ℕ) a + (![1, 16384] : Fin 2 → ℕ) a ≤ S64x16384.size a :=
  fun a => match a with
    | ⟨0, _⟩ => by show k + 1 ≤ 64; omega
    | ⟨1, _⟩ => by show 0 + 16384 ≤ 16384; omega

/-- Row k of the block, as a unit-stride rectangle, places (0, q) at (k, q). -/
theorem idx_row (k : ℕ) (hk : k < 64) (q : Fin 16384) :
    (Rect.unit (s := S64x16384) ![k, 0] ![1, 16384] (inb_row k hk)).idx (ix2 0 q) = ix2 ⟨k, hk⟩ q :=
  funext fun a => match a with
    | ⟨0, _⟩ => Fin.ext (by show k + 1 * 0 = k; omega)
    | ⟨1, _⟩ => Fin.ext (by show 0 + 1 * q.val = q.val; omega)

/-- A load of row k reads the block's row k. -/
theorem ld_row (X : Vec Ideal S64x16384 .f32) (k : ℕ) (hk : k < 64) (q : Fin 16384) :
    View.ld X (Rect.unit (s := S64x16384) ![k, 0] ![1, 16384] (inb_row k hk)) (ix2 0 q) = X (ix2 ⟨k, hk⟩ q) :=
  congrArg X (idx_row k hk q)

/-- A one-row piece at row k whose payload at column q is G (k, q) agrees with G under its rectangle. -/
theorem piece_of_row (G : S64x16384.Idx → EReal) (k : ℕ) (hk : k < 64)
    (pay : FVec Ideal S1x16384 .f32) (h : ∀ q : Fin 16384, pay (ix2 0 q) = G (ix2 ⟨k, hk⟩ q)) :
    ∀ x : (Rect.unit (s := S64x16384) ![k, 0] ![1, 16384] (inb_row k hk)).shape.Idx,
      pay x = G ((Rect.unit (s := S64x16384) ![k, 0] ![1, 16384] (inb_row k hk)).emb x) := by
  intro x
  obtain ⟨q, rfl⟩ := row_idx x
  exact (h q).trans (congrArg G (idx_row k hk q).symm)

/-- One bin's stored row, with the carried row loaded, is the specification's step at that bin. -/
theorem row_step (xs0 x0 : Vec Ideal S64x16384 .f32) (x1 x2 : Vec Ideal S1x16384 .f32) (k : ℕ) (hk : k < 64)
    (LOAD : Vec Ideal S1x16384 .f32) (hL : ∀ q : Fin 16384, LOAD (ix2 0 q) = xs0 (ix2 ⟨k, hk⟩ q)) (q : Fin 16384) :
    (shapeCast S1x16384 (addf (shapeCast S16384 LOAD shapeCasts_S1x16384_S16384)
      (multiReduction .add [0] S16384 (select (cmpi .eq (k0_pay6 x0 x1 x2) (broadcast S64x16384 (BitVec.ofNat 32 k))) (k0_pay7 x0 x1 x2)
        (broadcast S64x16384 (Scalar.ofBits .f32 0x00000000#32))) 0x00000000#32 reduces_S64x16384_S16384 (.inl rfl) rfl))
      shapeCasts_S16384_S1x16384 : FVec Ideal S1x16384 .f32) (ix2 0 q)
    = Cert.HistSpec.stepK xs0 x0 x1 x2 (ix2 ⟨k, hk⟩ q) := by
  refine (row_at _ _ _ _ q).trans ?_
  refine Eq.trans ?_ (Cert.HistSpec.stepK_ix2 xs0 x0 x1 x2 ⟨k, hk⟩ q).symm
  unfold Cert.HistSpec.stepAt Cert.HistSpec.contrib
  refine congrArg₂ (· + ·) (hL q) (Finset.sum_congr rfl fun r _ => ?_)
  exact congrArg₂ (fun (w : BitVec 32) (v : EReal) =>
    Scalar.select (IntOp.cmpi .eq w (BitVec.ofNat 32 k)) v (Ideal.ofBits .f32 0x00000000#32))
    (pay6_at x0 x1 x2 r q) (pay7_at x0 x1 x2 r q)

/-- The same with the carried row read by a load of row k of the carried block. -/
theorem row_step_ld (xs0 x0 : Vec Ideal S64x16384 .f32) (x1 x2 : Vec Ideal S1x16384 .f32) (k : ℕ) (hk : k < 64)
    (q : Fin 16384) :
    (shapeCast S1x16384 (addf (shapeCast S16384 (View.ld xs0 (Rect.unit (s := S64x16384) ![k, 0] ![1, 16384] (inb_row k hk))) shapeCasts_S1x16384_S16384)
      (multiReduction .add [0] S16384 (select (cmpi .eq (k0_pay6 x0 x1 x2) (broadcast S64x16384 (BitVec.ofNat 32 k))) (k0_pay7 x0 x1 x2)
        (broadcast S64x16384 (Scalar.ofBits .f32 0x00000000#32))) 0x00000000#32 reduces_S64x16384_S16384 (.inl rfl) rfl))
      shapeCasts_S16384_S1x16384 : FVec Ideal S1x16384 .f32) (ix2 0 q)
    = Cert.HistSpec.stepK xs0 x0 x1 x2 (ix2 ⟨k, hk⟩ q) :=
  row_step xs0 x0 x1 x2 k hk _ (ld_row xs0 k hk) q

/-- Reducing over the columns: the index (c, q) over bin c. -/
theorem lift_col (c : Fin 64) (q : Fin 16384) :
    (reduces_S64x16384_S64.lift (ix1 c) q : S64x16384.Idx) = ix2 c q :=
  funext fun a => match a with | ⟨0, _⟩ => Fin.ext rfl | ⟨1, _⟩ => Fin.ext rfl

/-- The value stored to the output, from a finished block h and the densities dn: the sum over bins and columns of
    |h · 2⁻¹¹ − dn|. -/
theorem pay1_at (h dn : Vec Ideal S64x16384 .f32) (j : S1x1.Idx) :
    k0_pay1 (F := Ideal) h dn j = Cert.HistSpec.finishK h dn := by
  unfold k0_pay1 Cert.HistSpec.finishK
  dsimp only
  refine (shapeCast_apply _ _ j (ix1 (0 : Fin 1)) ?_).trans ?_
  · have h0 : (j 0).val < 1 := (j 0).isLt
    have h1 : (j 1).val < 1 := (j 1).isLt
    rw [Shape.rowMajor_val_one, Shape.rowMajor_val_two]
    show 0 = (j 0).val * 1 + (j 1).val
    omega
  refine (Ideal.multiReduction_add_single _ _ _ _ _ (ix1 (0 : Fin 1))).trans ?_
  refine Finset.sum_congr rfl fun c _ => ?_
  refine (shapeCast_apply _ _ _ (ix1 (c : Fin 64)) ?_).trans ?_
  · rw [Shape.rowMajor_val_one, Shape.rowMajor_val_two]
    show c.val = c.val * 1 + 0
    omega
  refine (Ideal.multiReduction_add_single _ _ _ _ _ (ix1 (c : Fin 64))).trans ?_
  refine Finset.sum_congr rfl fun q _ => ?_
  refine (congrArg (absf (subf (mulf h (broadcast S64x16384 (Scalar.ofBits (F := Ideal) .f32 0x3A000000#32)))
    (shapeCast S64x16384 dn shapeCasts_S64x16384_S64x16384))) (lift_col c q)).trans ?_
  simp only [absf_at, subf_apply, mulf_apply, broadcast_apply, shapeCast_self, Ideal.ofBits_def]
  rfl

/-- Middle points: the 64 row stores tile the block, each row the step of the carried block at its bin, so the block the
    body leaves is the step of the block it found. -/
theorem sout_B (c : Dev nD) (i : grid0.Coords) (arg1 : Memref sig .tc .vmem S64x16384 .f32) (harg1 : arg1.IsWhole) (arg2 : Memref sig .tc .vmem S1x16384 .f32) (harg2 : arg2.IsWhole) (arg3 : Memref sig .tc .vmem S1x16384 .f32) (harg3 : arg3.IsWhole) (arg4 : Memref sig .tc .vmem S64x16384 .f32) (harg4 : arg4.IsWhole) (arg5 : Memref sig .tc .vmem S1x1 .f32) (harg5 : arg5.IsWhole) (arg6 : Memref sig .tc .vmem S64x16384 .f32) (harg6 : arg6.IsWhole) (hc0 : ¬cond0_0 i) (hc1 : ¬cond0_1 i)
    (x0 : Vec Ideal S64x16384 .f32) (x1 x2 : Vec Ideal S1x16384 .f32) (x3 : Vec Ideal S64x16384 .f32) (xs0 : Vec Ideal S64x16384 .f32) :
    sout0_B_0 (F := Ideal) c i arg1 harg1 arg2 harg2 arg3 harg3 arg4 harg4 arg5 harg5 arg6 harg6 hc0 hc1 x0 x1 x2 x3 xs0 = Cert.HistSpec.stepK xs0 x0 x1 x2 := by
  unfold sout0_B_0
  rw [View.read_writes_junk_eq_canon]
  funext y
  refine View.canon_apply_of_pieces (Cert.HistSpec.stepK xs0 x0 x1 x2) _ ?_ y
    (scover0_B_0 c i arg1 harg1 arg2 harg2 arg3 harg3 arg4 harg4 arg5 harg5 arg6 harg6 hc0 hc1 x0 x1 x2 x3 xs0 y)
  unfold kernelRun0_B
  dsimp only
  sl_unfold_words
  have hz : (![0, 0] : Fin 2 → ℕ) = fun _ => 0 := funext fun a => match a with | ⟨0, _⟩ => rfl | ⟨1, _⟩ => rfl
  simp only [View.readAt_eq_ld, harg1.read_unread, harg2.read_unread, harg3.read_unread, harg6.read_unread,
    View.ld_unit_zero (S := S64x16384) hz, View.ld_unit_zero (S := S1x16384) hz]
  iterate 64
    refine List.forall_mem_cons.mpr ⟨piece_of_row _ _ (by decide) _ fun q =>
      row_step_ld xs0 x0 x1 x2 _ _ q, ?_⟩
  exact fun _ h => absurd h List.not_mem_nil

/-- The last point leaves the same step in the block (its extra store goes to the output). -/
theorem sout_C (c : Dev nD) (i : grid0.Coords) (arg1 : Memref sig .tc .vmem S64x16384 .f32) (harg1 : arg1.IsWhole) (arg2 : Memref sig .tc .vmem S1x16384 .f32) (harg2 : arg2.IsWhole) (arg3 : Memref sig .tc .vmem S1x16384 .f32) (harg3 : arg3.IsWhole) (arg4 : Memref sig .tc .vmem S64x16384 .f32) (harg4 : arg4.IsWhole) (arg5 : Memref sig .tc .vmem S1x1 .f32) (harg5 : arg5.IsWhole) (arg6 : Memref sig .tc .vmem S64x16384 .f32) (harg6 : arg6.IsWhole) (hc0 : ¬cond0_0 i) (hc1 : cond0_1 i)
    (x0 : Vec Ideal S64x16384 .f32) (x1 x2 : Vec Ideal S1x16384 .f32) (x3 : Vec Ideal S64x16384 .f32) (xs0 : Vec Ideal S64x16384 .f32) :
    sout0_C_0 (F := Ideal) c i arg1 harg1 arg2 harg2 arg3 harg3 arg4 harg4 arg5 harg5 arg6 harg6 hc0 hc1 x0 x1 x2 x3 xs0 = Cert.HistSpec.stepK xs0 x0 x1 x2 := by
  unfold sout0_C_0
  rw [View.read_writes_junk_eq_canon]
  funext y
  refine View.canon_apply_of_pieces (Cert.HistSpec.stepK xs0 x0 x1 x2) _ ?_ y
    (scover0_C_0 c i arg1 harg1 arg2 harg2 arg3 harg3 arg4 harg4 arg5 harg5 arg6 harg6 hc0 hc1 x0 x1 x2 x3 xs0 y)
  unfold kernelRun0_C
  dsimp only
  sl_unfold_words
  have hz : (![0, 0] : Fin 2 → ℕ) = fun _ => 0 := funext fun a => match a with | ⟨0, _⟩ => rfl | ⟨1, _⟩ => rfl
  simp only [View.readAt_eq_ld, harg1.read_unread, harg2.read_unread, harg3.read_unread, harg4.read_unread, harg6.read_unread,
    View.ld_unit_zero (S := S64x16384) hz, View.ld_unit_zero (S := S1x16384) hz]
  iterate 64
    refine List.forall_mem_cons.mpr ⟨piece_of_row _ _ (by decide) _ fun q =>
      row_step_ld xs0 x0 x1 x2 _ _ q, ?_⟩
  exact fun _ h => absurd h List.not_mem_nil

/-- The last point's output: the whole block loaded after the 64 row stores is that step, and the stored value is the sum
    over bins and columns of |step · 2⁻¹¹ − densities|. -/
theorem out_C (c : Dev nD) (i : grid0.Coords) (arg1 : Memref sig .tc .vmem S64x16384 .f32) (harg1 : arg1.IsWhole) (arg2 : Memref sig .tc .vmem S1x16384 .f32) (harg2 : arg2.IsWhole) (arg3 : Memref sig .tc .vmem S1x16384 .f32) (harg3 : arg3.IsWhole) (arg4 : Memref sig .tc .vmem S64x16384 .f32) (harg4 : arg4.IsWhole) (arg5 : Memref sig .tc .vmem S1x1 .f32) (harg5 : arg5.IsWhole) (arg6 : Memref sig .tc .vmem S64x16384 .f32) (harg6 : arg6.IsWhole) (hc0 : ¬cond0_0 i) (hc1 : cond0_1 i)
    (x0 : Vec Ideal S64x16384 .f32) (x1 x2 : Vec Ideal S1x16384 .f32) (x3 : Vec Ideal S64x16384 .f32) (xs0 : Vec Ideal S64x16384 .f32) :
    out0_C_4 (F := Ideal) c i arg1 harg1 arg2 harg2 arg3 harg3 arg4 harg4 arg5 harg5 arg6 harg6 hc0 hc1 x0 x1 x2 x3 xs0 = fun _ => Cert.HistSpec.finishK (Cert.HistSpec.stepK xs0 x0 x1 x2) x3 := by
  unfold out0_C_4
  rw [View.read_writes_junk_eq_canon]
  unfold kernelRun0_C
  dsimp only
  sl_unfold_words
  have hz : (![0, 0] : Fin 2 → ℕ) = fun _ => 0 := funext fun a => match a with | ⟨0, _⟩ => rfl | ⟨1, _⟩ => rfl
  simp only [View.readAt_eq_ld, harg1.read_unread, harg2.read_unread, harg3.read_unread, harg4.read_unread, harg6.read_unread,
    View.ld_unit_zero (S := S64x16384) hz, View.ld_unit_zero (S := S1x16384) hz]
  generalize hW : View.readCov (Val := Elt Ideal) arg6.view _ _ = W
  have hWs : W = Cert.HistSpec.stepK xs0 x0 x1 x2 := by
    subst hW
    rw [View.readCov_eq_canon']
    funext y
    refine (View.canon_apply_of_pieces (S := S64x16384) (Cert.HistSpec.stepK xs0 x0 x1 x2) _ ?_ _
      (View.cover_of_tiledL (s := S64x16384) _ S1x16384.size (by sl_kernel_rfl) _)).trans ?_
    · iterate 64
        refine List.forall_mem_cons.mpr ⟨piece_of_row _ _ (by decide) _ fun q =>
          row_step_ld xs0 x0 x1 x2 _ _ q, ?_⟩
      exact fun _ h => absurd h List.not_mem_nil
    · exact congrFun (View.ld_unit_zero (Val := Elt Ideal) (S := S64x16384) (e := .f32) hz _
        (Cert.HistSpec.stepK xs0 x0 x1 x2)) y
  rw [hWs, View.canon_unit_zero (S := S1x1) hz]
  funext j
  exact pay1_at _ _ j

/-! ## The first point: the rows stored one by one over a zeroed block

At the first point the body stores zeros over the whole block, and the load of row k then reads what the zero store
and the stores of rows 0 … k − 1 left.  After the first k row stores, rows below k hold the step from zero and the
other rows still hold zero; so row k's load reads zero, its store leaves the step from zero, and after all 64 rows
the block is the step from the zero block. -/

/-- The whole block lies inside itself. -/
theorem inb_whole : ∀ a, (![0, 0] : Fin 2 → ℕ) a + S64x16384.size a ≤ S64x16384.size a :=
  fun a => match a with
    | ⟨0, _⟩ => by show 0 + 64 ≤ 64; omega
    | ⟨1, _⟩ => by show 0 + 16384 ≤ 16384; omega

/-- (j, q) is off row k when j ≠ k. -/
theorem not_mem_row (k : ℕ) (hk : k < 64) (j : ℕ) (hj : j < 64) (hjk : j ≠ k) (q : Fin 16384) :
    ix2 (⟨j, hj⟩ : Fin 64) q ∉ (Rect.unit (s := S64x16384) ![k, 0] ![1, 16384] (inb_row k hk)).set := by
  rw [Rect.mem_set_unit]
  intro h
  have h0 : k ≤ j ∧ j < k + 1 := h (0 : Fin 2)
  omega

/-- After the first k rows are stored over a zeroed block: rows below k hold G, the others hold zero. -/
def RowsDone (G : S64x16384.Idx → EReal) (k : ℕ) (L : List (View.Piece (Elt Ideal) S64x16384 .f32)) : Prop :=
  ∀ (j : ℕ) (hj : j < 64) (q : Fin 16384),
    View.canon L (ix2 (⟨j, hj⟩ : Fin 64) q)
      = if j < k then G (ix2 (⟨j, hj⟩ : Fin 64) q) else Ideal.ofBits .f32 0x00000000#32

/-- The zero store alone: every row holds zero. -/
theorem rowsDone_zero (G : S64x16384.Idx → EReal) :
    RowsDone G 0 [(⟨Rect.unit (s := S64x16384) ![0, 0] S64x16384.size inb_whole, k0_pay2 (F := Ideal)⟩ :
      View.Piece (Elt Ideal) S64x16384 .f32)] := by
  intro j hj q
  have hz : (![0, 0] : Fin 2 → ℕ) = fun _ => 0 := funext fun a => match a with | ⟨0, _⟩ => rfl | ⟨1, _⟩ => rfl
  rw [View.canon_unit_zero (S := S64x16384) hz, if_neg (Nat.not_lt_zero j)]
  rfl

/-- Storing row k, computed from a load of row k through the stores so far, extends the rows done by one. -/
theorem rowsDone_succ {sg : RefSig} {κ : Kind} {sp : Space} (v : View sg κ sp S64x16384 .f32)
    (x0 : Vec Ideal S64x16384 .f32) (x1 x2 : Vec Ideal S1x16384 .f32) (k : ℕ) (hk : k < 64)
    (L : List (View.Piece (Elt Ideal) S64x16384 .f32))
    (h : RowsDone (Cert.HistSpec.stepK (fun _ => Ideal.ofBits .f32 0x00000000#32) x0 x1 x2) k L) :
    RowsDone (Cert.HistSpec.stepK (fun _ => Ideal.ofBits .f32 0x00000000#32) x0 x1 x2) (k + 1)
      ((⟨Rect.unit (s := S64x16384) ![k, 0] ![1, 16384] (inb_row k hk),
        (shapeCast S1x16384 (addf (shapeCast S16384 (v.readCov L (Rect.unit (s := S64x16384) ![k, 0] ![1, 16384] (inb_row k hk)).toLoadRect) shapeCasts_S1x16384_S16384)
      (multiReduction .add [0] S16384 (select (cmpi .eq (k0_pay6 x0 x1 x2) (broadcast S64x16384 (BitVec.ofNat 32 k))) (k0_pay7 x0 x1 x2)
        (broadcast S64x16384 (Scalar.ofBits .f32 0x00000000#32))) 0x00000000#32 reduces_S64x16384_S16384 (.inl rfl) rfl))
      shapeCasts_S16384_S1x16384 : FVec Ideal S1x16384 .f32)⟩ :
        View.Piece (Elt Ideal) S64x16384 .f32) :: L) := by
  intro j hj q
  by_cases hjk : j = k
  · subst hjk
    rw [if_pos (Nat.lt_succ_self j)]
    have he : (Rect.unit (s := S64x16384) ![j, 0] ![1, 16384] (inb_row j hk)).emb (ix2 0 q)
        = ix2 (⟨j, hj⟩ : Fin 64) q := idx_row j hk q
    refine (congrArg (View.canon _) he.symm).trans ?_
    refine (View.canon_cons_emb _ _ _ _).trans ?_
    refine row_step _ x0 x1 x2 j hj _ (fun q' => ?_) q
    refine (congrFun (View.readCov_eq_canon' v L
      (Rect.unit (s := S64x16384) ![j, 0] ![1, 16384] (inb_row j hk)).toLoadRect) (ix2 0 q')).trans ?_
    refine (congrArg (View.canon L) (idx_row j hk q')).trans ?_
    have h1 := h j hj q'
    rw [if_neg (Nat.lt_irrefl j)] at h1
    exact h1
  · refine (View.canon_cons_of_not_mem (Val := Elt Ideal) _ L ?_).trans ?_
    · exact not_mem_row k hk j hj hjk q
    · rw [h j hj q]
      have hlt : j < k + 1 ↔ j < k := by omega
      simp only [hlt]

/-- With all 64 rows done the block is G. -/
theorem rowsDone_all (G : S64x16384.Idx → EReal) (L : List (View.Piece (Elt Ideal) S64x16384 .f32))
    (h : RowsDone G 64 L) : View.canon L = G := by
  funext y
  obtain ⟨c, q, rfl⟩ : ∃ (c : Fin 64) (q : Fin 16384), y = ix2 c q :=
    ⟨⟨(y 0).val, (y 0).isLt⟩, ⟨(y 1).val, (y 1).isLt⟩,
      funext fun a => match a with | ⟨0, _⟩ => Fin.ext rfl | ⟨1, _⟩ => Fin.ext rfl⟩
  obtain ⟨j, hj⟩ := c
  exact (h j hj q).trans (if_pos hj)

/-- The first point: the block is zeroed first, then every row k is stored from a load that reads those zeros through the
    rows stored so far; so the block it leaves is the step from the zero block. -/
theorem sout_A (c : Dev nD) (i : grid0.Coords) (arg1 : Memref sig .tc .vmem S64x16384 .f32) (harg1 : arg1.IsWhole) (arg2 : Memref sig .tc .vmem S1x16384 .f32) (harg2 : arg2.IsWhole) (arg3 : Memref sig .tc .vmem S1x16384 .f32) (harg3 : arg3.IsWhole) (arg4 : Memref sig .tc .vmem S64x16384 .f32) (harg4 : arg4.IsWhole) (arg5 : Memref sig .tc .vmem S1x1 .f32) (harg5 : arg5.IsWhole) (arg6 : Memref sig .tc .vmem S64x16384 .f32) (harg6 : arg6.IsWhole) (hc0 : cond0_0 i) (hc1 : ¬cond0_1 i)
    (x0 : Vec Ideal S64x16384 .f32) (x1 x2 : Vec Ideal S1x16384 .f32) (x3 : Vec Ideal S64x16384 .f32) :
    sout0_A_0 (F := Ideal) c i arg1 harg1 arg2 harg2 arg3 harg3 arg4 harg4 arg5 harg5 arg6 harg6 hc0 hc1 x0 x1 x2 x3 = Cert.HistSpec.stepK (fun _ => Ideal.ofBits .f32 0x00000000#32) x0 x1 x2 := by
  unfold sout0_A_0
  rw [View.read_writes_junk_eq_canon]
  unfold kernelRun0_A
  dsimp only
  sl_unfold_words
  have hz : (![0, 0] : Fin 2 → ℕ) = fun _ => 0 := funext fun a => match a with | ⟨0, _⟩ => rfl | ⟨1, _⟩ => rfl
  simp only [View.readAt_eq_ld, harg1.read_unread, harg2.read_unread, harg3.read_unread,
    View.ld_unit_zero (S := S64x16384) hz, View.ld_unit_zero (S := S1x16384) hz]
  refine rowsDone_all _ _ ?_
  iterate 64 (refine rowsDone_succ arg6.view x0 x1 x2 _ (by decide) _ ?_)
  exact rowsDone_zero _

end Cert.KernelPieces

end
-- ==== Proof.KernelRun.lean ====
/-
  The kernel's run, read as a value.  The scratch block [64 bins, 256 · 64 columns] is zeroed at the first grid point
  and, at every point t, gets tile t's counts added bin by bin; so after point n it is the specification's accumulation
  over tiles 0 … n (induction on the point, one case per branch of the body's two conditions: first point, middle
  points, last point).  At the last point the body also stores, to the [1, 1] output, the sum over bins and columns
  of |block · 2⁻¹¹ − densities|; that point is the output window's only write-back and its block is the whole array.
  The host lines after the region read the [1, 1] array as a scalar, divide by 2²⁰ and multiply by 1.
-/
import proofs.«148183_j63806034149742_1_alg».proof.Proof.KernelInputs
import proofs.«148183_j63806034149742_1_alg».proof.Proof.KernelPieces

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HistRun

open Cert.KernelIdeal Cert.KernelIdeal.Gen Cert.HistSpec

variable (m : (ℓ : Loc nD τ sig) → Buf (Elt Ideal) ℓ) (ρ : Dev nD → PrngReg)

/-- The histogram block the scratch holds after point `n`: the tile-by-tile accumulation of the specification. -/
theorem scratch_eq (c : Dev nD) : ∀ (n : ℕ) (h : n < cfg0.N),
    (outsAt0 m c n h).2 = accK (m ((c : Thread nD τ).loc main_arg0)) (m ((c : Thread nD τ).loc main_arg2)) (m ((c : Thread nD τ).loc main_arg3)) n
  | 0, h => by
    rw [outsAt0_A m c ⟨0, h⟩ rfl (by dsimp only; omega)]
    dsimp only
    rw [Cert.KernelPieces.sout_A, iblk0_eq, iblk1_eq, iblk2_eq]
    rfl
  | n + 1, h => by
    have hN : cfg0.N = 32 := N_0
    have h0 : ¬(⟨n + 1, h⟩ : Fin cfg0.N).val % 32 = 0 := by dsimp only; omega
    by_cases h31 : (⟨n + 1, h⟩ : Fin cfg0.N).val % 32 = 31
    · rw [outsAt0_C m c ⟨n + 1, h⟩ h0 h31]
      dsimp only
      rw [Cert.KernelPieces.sout_C, iblk0_eq, iblk1_eq, iblk2_eq]
      show stepK (outsAt0 m c n _).2 _ _ _ = _
      rw [scratch_eq c n]
      rfl
    · rw [outsAt0_B m c ⟨n + 1, h⟩ h0 h31]
      dsimp only
      rw [Cert.KernelPieces.sout_B, iblk0_eq, iblk1_eq, iblk2_eq]
      show stepK (outsAt0 m c n _).2 _ _ _ = _
      rw [scratch_eq c n]
      rfl

/-- The sum of absolute differences the last point stores to the output. -/
abbrev outVal (c : Dev nD) : EReal :=
  finishK (accK (m ((c : Thread nD τ).loc main_arg0)) (m ((c : Thread nD τ).loc main_arg2)) (m ((c : Thread nD τ).loc main_arg3)) 31)
    (densK (m ((c : Thread nD τ).loc main_arg1)))

/-- What the output's staging buffer holds after the last point. -/
theorem out_eq (c : Dev nD) (h : 31 < cfg0.N) : (outsAt0 m c 31 h).1 = fun _ => outVal m c := by
  rw [outsAt0_C m c ⟨31, h⟩ (by dsimp only; omega) (by dsimp only)]
  dsimp only
  rw [Cert.KernelPieces.out_C, iblk0_eq, iblk1_eq, iblk2_eq, iblk3_eq]
  show (fun _ => finishK (stepK (outsAt0 m c 30 _).2 _ _ _) _) = _
  rw [scratch_eq m c 30]
  rfl

/-- The result array [1, 1] after the region. -/
abbrev result5 (c : Dev nD) : Buf (Elt Ideal) ((c : Thread nD τ).loc main_v5) := fun _ => outVal m c

/-- The one write-back, at the last point, writes it. -/
theorem flushed_eq (c : Dev nD) (t : Fin cfg0.N) (hf : (cfg0.win 4).flush t = true) :
    (dats m 0 c).flushed 4 t = ((cfg0.win 4).blk t).view.read (Elt Ideal) (result5 m c) := by
  have hN : cfg0.N = 32 := N_0
  have h31 : t.val = 31 := by have := (flush0_4 t).mp hf; have := t.isLt; omega
  obtain ⟨n, hn⟩ := t
  dsimp only at h31
  subst h31
  show (cfg0.win 4).cut (grid0.coords ⟨31, hn⟩) ((dats m 0 c).after 4 ⟨31, hn⟩) = _
  rw [after0_4, out_eq]
  funext y
  rw [View.read_apply]
  rfl

/-- The last grid point. -/
abbrev t31 : Fin cfg0.N := ⟨31, by rw [show cfg0.N = 32 from N_0]; decide⟩

/-- So the result array ends holding it: the last point's block is the whole [1, 1] array. -/
theorem final5 (c : Dev nD) : (dats m 0 c).arrAt 4 cfg0.N = result5 m c :=
  (dats m 0 c).arrAt_eq_of_cover 4 (result5 m c) (flushed_eq m c) fun i =>
    ⟨t31, (flush0_4 t31).mpr rfl, by
      show i ∈ ((View.whole main_v5).slice (win0_4.rect t31)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index t31 0 * win0_4.size 0 ≤ (i 0 : Nat) ∧ (i 0 : Nat) < win0_4.index t31 0 * win0_4.size 0 + win0_4.xsize (grid0.coords t31) 0
        rw [show win0_4.index t31 0 * win0_4.size 0 = 0 from by decide +kernel, show win0_4.xsize (grid0.coords t31) 0 = 1 from by decide +kernel]; omega
      | ⟨1, _⟩ =>
        show win0_4.index t31 1 * win0_4.size 1 ≤ (i 1 : Nat) ∧ (i 1 : Nat) < win0_4.index t31 1 * win0_4.size 1 + win0_4.xsize (grid0.coords t31) 1
        rw [show win0_4.index t31 1 * win0_4.size 1 = 0 from by decide +kernel, show win0_4.xsize (grid0.coords t31) 1 = 1 from by decide +kernel]; omega⟩

/-- The host lines after the region: the [1, 1] result as a scalar, divided by 2²⁰, times 1. -/
theorem tail_eq (c : Dev nD) :
    Pipeline.afterTail₀ cfgs (dats m) 0 (V0 m) [hostOps1] c main_v8
      = fun _ => lossK (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.tc.devRef main_v5)
      = result5 m c :=
    (Pipeline.withArrays_arr spec0 launch0.win.arr_inj c _ _ 4).trans (final5 m c)
  rw [hw]
  funext i
  rfl

/-- The kernel's run, read: the result at the tile-by-tile loss, the four arguments unchanged. -/
theorem run : θ_run defs (onTc (τ := τ) (main (F := Ideal))) ⟨m, fun _ => 0, ρ⟩ fun r => ∀ c : Dev nD,
      r.2.mem ((c.tc : Thread nD τ).loc main_v8)
        = (fun _ => lossK (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HistRun
end
-- ==== Proof.RefLoss.lean ====
/-
  The reference program's value is the histogram loss of the specification.

  Stage by stage: the bin word of a sample is the specification's bin word, the in-range count is the specification's;
  the flat word (t * 64 + d) * 64 + bin does not wrap, so the scatter adds, at the flat position of (t, d, c), exactly
  the counts of the samples of the pair (t, d) whose bin is c: the histogram entry.  Division by 2048 is the product
  with 2⁻¹¹ at every extended real, and the sum over the rank-3 index set is the triple sum over its coordinates.
-/
import proofs.«148183_j63806034149742_1_alg».proof.Proof.Gen.ReferenceIdeal.Read
import proofs.«148183_j63806034149742_1_alg».proof.Proof.HistSpec
import Idealize.ShloMosaic.Lib.ValueIdx
import Idealize.ShloMosaic.Lib.Pipeline.Value
import Idealize.ShloMosaic.PureOps.Ideal.Laws

noncomputable section

open scoped BigOperators

namespace Cert.RefLoss

open Cert.ReferenceIdeal Cert.ReferenceIdeal.Gen Cert.ReferenceIdeal.Read Idealize.ShloMosaic Idealize.ShloMosaic.TcCoe
open Idealize.ShloMosaic.ValueIdx Cert.HistSpec

section Stages

variable (x0 : (⟨S2048x256x64, .f32⟩ : BufTy).Contents (Elt Ideal)) (x1 : (⟨S256x64x64, .f32⟩ : BufTy).Contents (Elt Ideal))
    (x2 x3 : (⟨S256x64, .f32⟩ : BufTy).Contents (Elt Ideal))

/-! ## The stages before the scatter, at a sample (n, t, d) -/

/-- An edge array broadcast over the samples is read at (n, t, d) at its (t, d) (four such pairs of broadcasts). -/
theorem idx_1_2 (n : Fin 2048) (t : Fin 256) (d : Fin 64) : idx_main_v1 (idx_main_v2 (ix3 n t d)) = ix2 t d := by
  funext a; match a with | ⟨0, _⟩ => rfl | ⟨1, _⟩ => rfl
theorem idx_4_5 (n : Fin 2048) (t : Fin 256) (d : Fin 64) : idx_main_v4 (idx_main_v5 (ix3 n t d)) = ix2 t d := by
  funext a; match a with | ⟨0, _⟩ => rfl | ⟨1, _⟩ => rfl
theorem idx_12_13 (n : Fin 2048) (t : Fin 256) (d : Fin 64) : idx_main_v12 (idx_main_v13 (ix3 n t d)) = ix2 t d := by
  funext a; match a with | ⟨0, _⟩ => rfl | ⟨1, _⟩ => rfl
theorem idx_15_16 (n : Fin 2048) (t : Fin 256) (d : Fin 64) : idx_main_v15 (idx_main_v16 (ix3 n t d)) = ix2 t d := by
  funext a; match a with | ⟨0, _⟩ => rfl | ⟨1, _⟩ => rfl

/-- The bin word of sample (n, t, d) is the specification's. -/
theorem v11_at (n : Fin 2048) (t : Fin 256) (d : Fin 64) :
    val_main_v11 (F := Ideal) x0 x2 x3 (ix3 n t d)
      = binW (x0 (ix3 n t d)) (x2 (ix2 t d)) (x3 (ix2 t d)) := by
  simp only [val_main_v11_apply, val_main_v10_apply, val_main_call0_v4_apply, val_main_call0_v3_apply, val_main_c_0_apply,
    val_main_call0_v2_apply, val_main_call0_v1_apply, val_main_call0_v0_apply, val_main_c_apply, val_main_v9_apply,
    val_main_v8_apply, val_main_v7_apply, val_main_cst_apply, val_main_v6_apply, val_main_v5_apply, val_main_v4_apply,
    val_main_v3_apply, val_main_v2_apply, val_main_v1_apply, val_main_v0_apply, idx_1_2, idx_4_5]
  rfl

/-- The in-range count of sample (n, t, d) is the specification's. -/
theorem v19_at (n : Fin 2048) (t : Fin 256) (d : Fin 64) :
    val_main_v19 (F := Ideal) x0 x2 x3 (ix3 n t d)
      = inRange (x0 (ix3 n t d)) (x2 (ix2 t d)) (x3 (ix2 t d)) := by
  simp only [val_main_v19_apply, val_main_v18_apply, val_main_v17_apply, val_main_v16_apply, val_main_v15_apply,
    val_main_v14_apply, val_main_v13_apply, val_main_v12_apply, idx_12_13, idx_15_16]
  rfl

/-- The flat word of sample (n, t, d): ((t * 64 + d) * 64) + bin, in 32-bit arithmetic. -/
theorem v33_at (n : Fin 2048) (t : Fin 256) (d : Fin 64) :
    val_main_v33 (F := Ideal) x0 x2 x3 (ix3 n t d)
      = (BitVec.ofNat 32 t.val * 64#32 + BitVec.ofNat 32 d.val) * 64#32
          + binW (x0 (ix3 n t d)) (x2 (ix2 t d)) (x3 (ix2 t d)) := by
  rw [val_main_v33_apply, v11_at]
  simp only [val_main_v32_apply, val_main_v31_apply, val_main_v30_apply, val_main_v29_apply, val_main_c_2_apply,
    val_main_v28_apply, val_main_v27_apply, val_main_v26_apply, val_main_v25_apply, val_main_v24_apply,
    val_main_v23_apply, val_main_v22_apply, val_main_c_1_apply, val_main_v21_apply, val_main_v20_apply]
  rfl

/-! ## The scatter's dimension numbers: update e lands at the operand position its index word names -/

/-- The scatter's dimension numbers. -/
abbrev sd : ScatterDims S1048576 S33554432x1 S33554432 := scatter_S1048576_S33554432x1_S33554432_n_0_0_1

/-- The start of update e's (one-element) window on the operand's one axis: its index word, read signed. -/
theorem scatter_start (e : Fin 33554432) (idx : IVec S33554432x1 32) :
    sd.start (ix1 e) idx 0 = (idx (ix2 e 0)).toInt := by
  unfold ScatterDims.start
  rw [dif_pos (show (0 : Fin 1) ∈ sd.scatterDimsToOperandDims from List.mem_singleton.mpr rfl)]
  have hsi : sd.siIdx (ix1 e) ⟨List.idxOf (0 : Fin 1) sd.scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The window coordinate is 0: the operand's one axis is an inserted one. -/
theorem scatter_window (e : Fin 33554432) : sd.window (ix1 e) 0 = 0 := by
  unfold ScatterDims.window
  rw [dif_neg (by decide)]

/-- Update e lands at operand position s exactly when its index word, read signed, is s. -/
theorem scatter_lands (e : Fin 33554432) (idx : IVec S33554432x1 32) (s : Fin 1048576) :
    sd.resultIdx? (ix1 e) idx = some (ix1 s) ↔ (idx (ix2 e 0)).toInt = (s.val : Int) := by
  have hs : ∀ a : Fin 1, sd.start (ix1 e) idx a + sd.window (ix1 e) a = (idx (ix2 e 0)).toInt := by
    intro a
    obtain rfl : a = 0 := Subsingleton.elim _ _
    rw [scatter_start, scatter_window]; simp
  unfold ScatterDims.resultIdx?
  split_ifs with h
  · rw [Option.some_inj]
    constructor
    · intro hf
      have h0 := congrArg (fun f : S1048576.Idx => ((f 0).val : Int)) hf
      have h1 := (h 0).1
      rw [hs 0] at h1
      simp only [hs 0] at h0
      have h2 : (((idx (ix2 e 0)).toInt.toNat : Nat) : Int) = (s.val : Int) := h0
      omega
    · intro he
      funext a
      obtain rfl : a = 0 := Subsingleton.elim _ _
      refine Fin.ext ?_
      show (sd.start (ix1 e) idx 0 + sd.window (ix1 e) 0).toNat = s.val
      rw [hs 0, he]; simp
  · constructor
    · intro hf; cases hf
    · intro he
      exfalso; apply h
      intro a
      obtain rfl : a = 0 := Subsingleton.elim _ _
      rw [hs 0, he]
      refine ⟨by omega, ?_⟩
      show (s.val : Int) < ((1048576 : Nat) : Int)
      have := s.isLt; omega

/-! ## Sums over a rank-3 index set, and a double sum with one nonzero term -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- A double sum whose terms vanish off the pair (t, d) is its term there. -/
theorem sum_pick {M : Type*} [AddCommMonoid M] {m k : Nat} (t : Fin m) (d : Fin k) (f : Fin m → Fin k → M)
    (h : ∀ t' d', ¬(t' = t ∧ d' = d) → f t' d' = 0) : ∑ t', ∑ d', f t' d' = f t d := by
  rw [Finset.sum_eq_single t, Finset.sum_eq_single d]
  · intro d' _ hd; exact h t d' (fun hh => hd hh.2)
  · intro hn; exact absurd (Finset.mem_univ _) hn
  · intro t' _ ht; exact Finset.sum_eq_zero (fun d' _ => h t' d' (fun hh => ht hh.1))
  · intro hn; exact absurd (Finset.mem_univ _) hn

/-! ## Words: the bin word is below 64, the flat word does not wrap -/

/-- The conversion of an extended real clipped to [0, 63] is a word below 64. -/
theorem fptosi_clip_lt (y : EReal) :
    (Ideal.fptosi 32 (min ((((63#32 : BitVec 32).toInt : ℝ)) : EReal) (max ((((0#32 : BitVec 32).toInt : ℝ)) : EReal) y))).toNat < 64 := by
  have e63 : (((63#32 : BitVec 32).toInt : ℝ)) = 63 := by
    rw [show (63#32 : BitVec 32).toInt = 63 from by decide]; norm_num
  have e0 : (((0#32 : BitVec 32).toInt : ℝ)) = 0 := by
    rw [show (0#32 : BitVec 32).toInt = 0 from by decide]; norm_num
  rw [e63, e0]
  have hz0 : ((0 : ℝ) : EReal) ≤ min ((63 : ℝ) : EReal) (max ((0 : ℝ) : EReal) y) :=
    le_min (by exact_mod_cast (by norm_num : (0 : ℝ) ≤ 63)) (le_max_left _ _)
  have hz1 : min ((63 : ℝ) : EReal) (max ((0 : ℝ) : EReal) y) ≤ ((63 : ℝ) : EReal) := min_le_left _ _
  generalize min ((63 : ℝ) : EReal) (max ((0 : ℝ) : EReal) y) = z at hz0 hz1
  induction z using EReal.rec with
  | bot => exact absurd hz0 (by simp)
  | top => exact absurd hz1 (by simp)
  | coe r =>
    have h0 : (0 : ℝ) ≤ r := by exact_mod_cast hz0
    have h1 : r ≤ 63 := by exact_mod_cast hz1
    have hf0 : 0 ≤ ⌊r⌋ := Int.floor_nonneg.2 h0
    have hf1 : ⌊r⌋ < 64 := Int.floor_lt.2 (by push_cast; linarith)
    unfold Ideal.fptosi
    rw [Ideal.toIntClamped_coe, if_pos h0]
    obtain ⟨k, hk⟩ : ∃ k : Nat, ⌊r⌋ = (k : Int) := ⟨⌊r⌋.toNat, (Int.toNat_of_nonneg hf0).symm⟩
    rw [hk] at hf1 ⊢
    have hk64 : k < 64 := by omega
    have hm : max (-(((2 ^ (32 - 1) : Nat)) : Int)) (min ((((2 ^ (32 - 1) : Nat)) : Int) - 1) (k : Int)) = (k : Int) := by
      norm_num; omega
    rw [hm, BitVec.ofInt_natCast, BitVec.toNat_ofNat]
    omega

/-- The bin word is below 64. -/
theorem binW_lt (x a b : EReal) : (binW x a b).toNat < 64 := fptosi_clip_lt _

/-- The flat word (t * 64 + d) * 64 + bin, bin below 64, does not wrap: read signed it is that number. -/
theorem word_toInt (t : Fin 256) (d : Fin 64) (w : BitVec 32) (hw : w.toNat < 64) :
    ((BitVec.ofNat 32 t.val * 64#32 + BitVec.ofNat 32 d.val) * 64#32 + w).toInt
      = (((t.val * 64 + d.val) * 64 + w.toNat : Nat) : Int) := by
  have ht := t.isLt
  have hd := d.isLt
  have hn : ((BitVec.ofNat 32 t.val * 64#32 + BitVec.ofNat 32 d.val) * 64#32 + w).toNat
      = (t.val * 64 + d.val) * 64 + w.toNat := by
    simp only [BitVec.toNat_add, BitVec.toNat_mul, BitVec.toNat_ofNat]
    omega
  rw [BitVec.toInt_eq_toNat_cond, hn, if_pos (by omega)]

/-- A select on an equality test of words is the `if` on their equality. -/
theorem select_cmpi_eq {α : Type} (u v : BitVec 32) (A B : α) :
    Scalar.select (IntOp.cmpi .eq u v) A B = if u = v then A else B := by
  by_cases h : u = v
  · have hb : IntOp.cmpi .eq u v = 1#1 := by subst h; simp [IntOp.cmpi]
    rw [hb, select_one, if_pos h]
  · have hb : IntOp.cmpi .eq u v = 0#1 := by
      have hne : (u == v) = false := beq_eq_false_iff_ne.2 h
      simp [IntOp.cmpi, hne]
    rw [hb, select_zero, if_neg h]

/-! ## The scatter at the flat position of (t, d, c) is the histogram entry -/

/-- The samples' index set by flat position. -/
abbrev E : S33554432.Idx ≃ S2048x256x64.Idx := Shape.reshapeEquiv shapeCasts_S2048x256x64_S33554432

/-- The flat position of (t, d, c). -/
abbrev flat (t : Fin 256) (d c : Fin 64) : Fin 1048576 :=
  ⟨(t.val * 64 + d.val) * 64 + c.val, by have := t.isLt; have := d.isLt; have := c.isLt; omega⟩

/-- The [e, 1] column of index words reads update e's word. -/
theorem idx_37 (e : Fin 33554432) : idx_main_v37 (ix2 e (0 : Fin 1)) = ix1 e := by
  funext a; match a with | ⟨0, _⟩ => rfl

/-- Update e's index word is the flat word of the sample at flat position e. -/
theorem v37_at (e : Fin 33554432) :
    val_main_v37 (F := Ideal) x0 x2 x3 (ix2 e (0 : Fin 1)) = val_main_v33 (F := Ideal) x0 x2 x3 (E (ix1 e)) := by
  rw [val_main_v37_apply, idx_37]; rfl

/-- Update e's value is the in-range count of the sample at flat position e. -/
theorem v35_at (e : Fin 33554432) :
    val_main_v35 (F := Ideal) x0 x2 x3 (ix1 e) = val_main_v19 (F := Ideal) x0 x2 x3 (E (ix1 e)) := rfl

/-- What the sample at index i adds at flat position s: its count when its flat word is s. -/
def G (s : Fin 1048576) (i : S2048x256x64.Idx) : EReal :=
  if (val_main_v33 (F := Ideal) x0 x2 x3 i).toInt = (s.val : Int) then val_main_v19 (F := Ideal) x0 x2 x3 i else 0

/-- At the flat position of (t, d, c) the sample (n, t', d') adds nothing unless (t', d') = (t, d), and then what the
    specification says it adds to bin c. -/
theorem G_at (t : Fin 256) (d c : Fin 64) (n : Fin 2048) (t' : Fin 256) (d' : Fin 64) :
    G x0 x2 x3 (flat t d c) (ix3 n t' d')
      = if t' = t ∧ d' = d then
          contrib (BitVec.ofNat 32 c.val) (x0 (ix3 n t' d')) (x2 (ix2 t' d')) (x3 (ix2 t' d'))
        else 0 := by
  unfold G
  rw [v33_at, v19_at, word_toInt _ _ _ (binW_lt _ _ _)]
  unfold contrib
  rw [select_cmpi_eq, Ideal.ofBits_zero_f32]
  have hb := binW_lt (x0 (ix3 n t' d')) (x2 (ix2 t' d')) (x3 (ix2 t' d'))
  generalize binW (x0 (ix3 n t' d')) (x2 (ix2 t' d')) (x3 (ix2 t' d')) = w at hb ⊢
  have ht := t.isLt; have hd := d.isLt; have hc := c.isLt; have ht' := t'.isLt; have hd' := d'.isLt
  have key : ((((t'.val * 64 + d'.val) * 64 + w.toNat : Nat) : Int) = ((flat t d c).val : Int))
      ↔ (t' = t ∧ d' = d ∧ w = BitVec.ofNat 32 c.val) := by
    constructor
    · intro h
      have h' : (t'.val * 64 + d'.val) * 64 + w.toNat = (t.val * 64 + d.val) * 64 + c.val := by exact_mod_cast h
      refine ⟨Fin.ext (by omega), Fin.ext (by omega), ?_⟩
      apply BitVec.eq_of_toNat_eq
      rw [BitVec.toNat_ofNat]; omega
    · rintro ⟨rfl, rfl, rfl⟩
      rw [BitVec.toNat_ofNat]
      have hm : c.val % 2 ^ 32 = c.val := Nat.mod_eq_of_lt (by omega)
      rw [hm]
  by_cases h1 : t' = t ∧ d' = d
  · by_cases h2 : w = BitVec.ofNat 32 c.val
    · rw [if_pos (key.2 ⟨h1.1, h1.2, h2⟩), if_pos h1, if_pos h2]
    · rw [if_neg (fun h => h2 (key.1 h).2.2), if_pos h1, if_neg h2]
  · rw [if_neg (fun h => h1 ⟨(key.1 h).1, (key.1 h).2.1⟩), if_neg h1]

/-- The host's accumulating scatter at an index, at the ideal values: the operand there plus the updates landing there
    (for every shape and every scatter record). -/
theorem scatterAdd_apply {s si su : Shape} {φ : FTy} (d : ScatterDims s si su) {w : Nat} (x : FVec Ideal s φ)
    (idx : IVec si w) (upd : FVec Ideal su φ) (i : s.Idx) :
    Host.scatterAdd d x idx upd i
      = x i + ∑ j ∈ Finset.univ.filter (fun j => d.resultIdx? j idx = some i), upd j := rfl

/-- Zero plus a filtered sum, re-indexed along a bijection. -/
theorem zero_add_sum_filter {ι κ : Type} {_ : Fintype ι} [Fintype κ] (E : ι ≃ κ) {p : ι → Prop} {_ : DecidablePred p}
    {z : EReal} {f : ι → EReal} (g : κ → EReal) (hz : z = 0)
    (h : ∀ j, (if p j then f j else 0) = g (E j)) :
    z + ∑ j ∈ Finset.univ.filter p, f j = ∑ i, g i := by
  rw [hz, zero_add, Finset.sum_filter, Finset.sum_congr rfl (fun j _ => h j)]
  exact Equiv.sum_comp E g

/-- The scatter's operand is zero everywhere. -/
theorem v36_at (s : Fin 1048576) : val_main_v36 (F := Ideal) (ix1 s) = 0 := by
  rw [val_main_v36_apply, val_main_cst_3_apply]
  exact Ideal.ofBits_zero_f32

/-- The scatter's result at the flat position of (t, d, c) is the histogram entry H (t, d, c). -/
theorem v38_at (t : Fin 256) (d c : Fin 64) :
    val_main_v38 (F := Ideal) x0 x2 x3 (ix1 (flat t d c)) = hist x0 x2 x3 t d c := by
  unfold val_main_v38
  refine (scatterAdd_apply _ _ _ _ _).trans ?_
  refine (zero_add_sum_filter E (G x0 x2 x3 (flat t d c)) (v36_at (flat t d c)) (fun j => ?_)).trans ?_
  · obtain ⟨e, rfl⟩ : ∃ e : Fin 33554432, j = ix1 e := ⟨j 0, eq_ix1 j⟩
    unfold G
    by_cases hP : (val_main_v33 (F := Ideal) x0 x2 x3 (E (ix1 e))).toInt = ((flat t d c).val : Int)
    · rw [if_pos hP, if_pos ((scatter_lands e _ (flat t d c)).2 (by rw [v37_at]; exact hP)), v35_at]
    · rw [if_neg hP, if_neg (fun h => hP (by rw [← v37_at]; exact (scatter_lands e _ (flat t d c)).1 h))]
  · rw [sum_idx3]
    unfold hist
    refine Finset.sum_congr rfl (fun n _ => ?_)
    rw [sum_pick t d (fun t' d' => G x0 x2 x3 (flat t d c) (ix3 n t' d'))]
    · rw [G_at, if_pos ⟨rfl, rfl⟩]
    · intro t' d' h
      show G x0 x2 x3 (flat t d c) (ix3 n t' d') = 0
      rw [G_at, if_neg h]

/-! ## After the scatter: the mean absolute difference -/

/-- The reshape to (t, d, bin) reads the flat position (t · 64 + d) · 64 + bin. -/
theorem idx_39 (t : Fin 256) (d c : Fin 64) : idx_main_v39 (ix3 t d c) = ix1 (flat t d c) := by
  funext a; match a with | ⟨0, _⟩ => rfl

/-- The word 0x45000000 denotes 2048 … -/
theorem ofBits_2048 : Ideal.ofBits .f32 0x45000000#32 = ((2048 : ℝ) : EReal) := by
  simp [Ideal.ofBits, Ideal.ieee, -EReal.coe_mul]; norm_num

/-- … and the word 0x3A000000 its reciprocal. -/
theorem ofBits_inv2048 : Ideal.ofBits .f32 0x3A000000#32 = ((1 / 2048 : ℝ) : EReal) := by
  simp [Ideal.ofBits, Ideal.ieee, -EReal.coe_mul]; norm_num

/-- Division by 2048 is the product with 2⁻¹¹, at every extended real. -/
theorem div_2048 (y : EReal) :
    Ideal.div y (Ideal.ofBits .f32 0x45000000#32) = y * Ideal.ofBits .f32 0x3A000000#32 := by
  rw [ofBits_2048, ofBits_inv2048]
  exact Ideal.div_coe (by norm_num) y

/-- The absolute difference at (t, d, c). -/
theorem v43_at (t : Fin 256) (d c : Fin 64) :
    val_main_v43 (F := Ideal) x0 x1 x2 x3 (ix3 t d c)
      = eabs (hist x0 x2 x3 t d c * Ideal.ofBits .f32 0x3A000000#32 - x1 (ix3 t d c)) := by
  rw [val_main_v43_apply, val_main_v42_apply, val_main_v41_apply, val_main_v40_apply, val_main_cst_4_apply,
    val_main_v39_apply, idx_39, v38_at, ← div_2048]
  generalize hist x0 x2 x3 t d c = H
  rfl

/-- Zero plus a sum over a rank-3 index set, as the triple sum of the terms named by coordinates. -/
theorem zero_add_sum3 {n0 n1 n2 : Nat} {z : EReal} {f : (⟨3, ![n0, n1, n2]⟩ : Shape).Idx → EReal}
    (g : Fin n0 → Fin n1 → Fin n2 → EReal) (hz : z = 0) (h : ∀ a b c, f (ix3 a b c) = g a b c) :
    z + ∑ j, f j = ∑ a, ∑ b, ∑ c, g a b c := by
  rw [hz, zero_add, sum_idx3]
  exact Finset.sum_congr rfl (fun a _ => Finset.sum_congr rfl (fun b _ => Finset.sum_congr rfl (fun c _ => h a b c)))

/-- The reduction over all three axes is the specification's total. -/
theorem v44_eq (i : S_.Idx) : val_main_v44 (F := Ideal) x0 x1 x2 x3 i = total x0 x1 x2 x3 := by
  rw [val_main_v44_apply, val_main_cst_5_apply]
  unfold total
  exact zero_add_sum3 _ Ideal.ofBits_zero_f32 (fun t d c => v43_at x0 x1 x2 x3 t d c)

end Stages

/-- The reference program's value is the specification's loss. -/
theorem val_eq_loss
    (x0 : (⟨S2048x256x64, .f32⟩ : BufTy).Contents (Elt Ideal)) (x1 : (⟨S256x64x64, .f32⟩ : BufTy).Contents (Elt Ideal))
    (x2 x3 : (⟨S256x64, .f32⟩ : BufTy).Contents (Elt Ideal)) :
    Cert.ReferenceIdeal.Read.val_main_v46 (F := Ideal) x0 x1 x2 x3 = fun _ => Cert.HistSpec.loss x0 x1 x2 x3 := by
  funext i
  show val_main_v46 (F := Ideal) x0 x1 x2 x3 i = loss x0 x1 x2 x3
  rw [val_main_v46_apply, val_main_v45_apply, val_main_cst_7_apply, val_main_cst_6_apply, v44_eq]
  unfold loss
  generalize total x0 x1 x2 x3 = T
  rfl

end Cert.RefLoss

end
-- ==== Proof.TotalEq.lean ====
/-
  The histogram accumulated tile by tile is the histogram; hence the loss computed from the accumulated block is the
  specification's loss.

  Everything here is commutativity and associativity of + on the extended reals: a sum over n < a * b is the double sum
  over quotient and remainder, n = b * t + r. With a = 32, b = 64 this turns the 32 tiles of 64 samples into the 2048
  samples; with a = 256, b = 64 it turns the 16384 columns q = 64 t + d into the pairs (t, d).
-/
import Mathlib.Algebra.BigOperators.Fin
import Mathlib.Algebra.BigOperators.Intervals
import Idealize.ShloMosaic.PureOps.Ideal
import Idealize.ShloMosaic.PureOps.Ideal.Laws
import Idealize.ShloMosaic.Lib.ValueIdx
import proofs.«148183_j63806034149742_1_alg».proof.Proof.HistSpec

noncomputable section

open scoped BigOperators

namespace Cert.HistAlgebra

open Cert.HistSpec Idealize.ShloMosaic Idealize.ShloMosaic.ValueIdx

/-! ## Sums over n < a * b by quotient and remainder -/

/-- In a commutative monoid, the double sum over t < a and r < b of g (b t + r) is the sum over n < a b of g n. -/
theorem sum_range_mul {M : Type*} [AddCommMonoid M] (b : ℕ) (g : ℕ → M) (a : ℕ) :
    ∑ t ∈ Finset.range a, ∑ r ∈ Finset.range b, g (b * t + r) = ∑ n ∈ Finset.range (a * b), g n := by
  induction a with
  | zero => simp
  | succ a ih =>
    rw [Finset.sum_range_succ, ih, Nat.succ_mul, Finset.sum_range_add, Nat.mul_comm b a]

/-- The same over the finite types: the double sum over t : Fin a, r : Fin b is the sum over n : Fin N, N = a b. -/
theorem sum_fin_mul {M : Type*} [AddCommMonoid M] (a b N : ℕ) (h : N = a * b) (g : ℕ → M) :
    ∑ t : Fin a, ∑ r : Fin b, g (b * t.val + r.val) = ∑ n : Fin N, g n.val := by
  subst h
  rw [Fin.sum_univ_eq_sum_range (fun n => g n) (a * b), ← sum_range_mul b g a,
    Fin.sum_univ_eq_sum_range (fun t => ∑ r : Fin b, g (b * t + r.val)) a]
  refine Finset.sum_congr rfl (fun t _ => ?_)
  exact Fin.sum_univ_eq_sum_range (fun r => g (b * t + r)) b

/-! ## The accumulated block -/

/-- What sample number m % 2048 of column q adds to bin c. -/
def term (X : (⟨3, ![2048, 256, 64]⟩ : Shape).Idx → EReal) (lo hi : (⟨2, ![256, 64]⟩ : Shape).Idx → EReal)
    (c : Fin 64) (q : Fin 16384) (m : ℕ) : EReal :=
  contrib (BitVec.ofNat 32 c.val) (X (ix3 ⟨m % 2048, Nat.mod_lt _ (by norm_num)⟩ (tq q) (dq q)))
    (lo (ix2 (tq q) (dq q))) (hi (ix2 (tq q) (dq q)))

/-- After tiles 0 … n the block holds, at bin c and column q, the contributions of the samples 64 t + r, t ≤ n. -/
theorem accK_sum (X : (⟨3, ![2048, 256, 64]⟩ : Shape).Idx → EReal) (lo hi : (⟨2, ![256, 64]⟩ : Shape).Idx → EReal)
    (c : Fin 64) (q : Fin 16384) (n : ℕ) :
    accK X lo hi n (ix2 c q) = ∑ t ∈ Finset.range (n + 1), ∑ r : Fin 64, term X lo hi c q (64 * t + r.val) := by
  induction n with
  | zero =>
    show (Ideal.ofBits .f32 0x00000000#32 : EReal)
        + ∑ r : Fin 64, contrib (BitVec.ofNat 32 c.val) (tileOf X 0 (ix2 r q)) (edgeRow lo (ix2 0 q))
            (edgeRow hi (ix2 0 q)) = _
    rw [Ideal.ofBits_zero_f32, zero_add, Finset.sum_range_one]
    rfl
  | succ n ih =>
    show accK X lo hi n (ix2 c q)
        + ∑ r : Fin 64, contrib (BitVec.ofNat 32 c.val) (tileOf X (n + 1) (ix2 r q)) (edgeRow lo (ix2 0 q))
            (edgeRow hi (ix2 0 q)) = _
    rw [ih, Finset.sum_range_succ _ (n + 1)]
    rfl

/-- After all 32 tiles the block holds the histogram: bin c of the pair (t, d) = (q / 64, q % 64). -/
theorem accK_last (X : (⟨3, ![2048, 256, 64]⟩ : Shape).Idx → EReal) (lo hi : (⟨2, ![256, 64]⟩ : Shape).Idx → EReal)
    (c : Fin 64) (q : Fin 16384) :
    Cert.HistSpec.accK X lo hi 31 (ix2 c q)
      = Cert.HistSpec.hist X lo hi (Cert.HistSpec.tq q) (Cert.HistSpec.dq q) c := by
  rw [accK_sum, ← Fin.sum_univ_eq_sum_range (fun t => ∑ r : Fin 64, term X lo hi c q (64 * t + r.val)) (31 + 1),
    sum_fin_mul 32 64 2048 (by norm_num) (term X lo hi c q)]
  refine Finset.sum_congr rfl (fun n _ => ?_)
  have hn : n.val % 2048 = n.val := Nat.mod_eq_of_lt n.isLt
  have : (⟨n.val % 2048, Nat.mod_lt _ (by norm_num)⟩ : Fin 2048) = n := Fin.ext hn
  unfold term
  rw [this]

/-! ## The total -/

/-- A sum over the 16384 columns q = 64 t + d is the double sum over the pairs (t, d). -/
theorem sum_cols {M : Type*} [AddCommMonoid M] (G : Fin 256 → Fin 64 → M) :
    ∑ q : Fin 16384, G (tq q) (dq q) = ∑ t : Fin 256, ∑ d : Fin 64, G t d := by
  have key := sum_fin_mul 256 64 16384 (by norm_num)
    (fun m => G ⟨m / 64 % 256, Nat.mod_lt _ (by norm_num)⟩ ⟨m % 64, Nat.mod_lt _ (by norm_num)⟩)
  refine Eq.trans ?_ (key.symm.trans ?_)
  · refine Finset.sum_congr rfl (fun q _ => ?_)
    have hq : q.val / 64 % 256 = q.val / 64 := Nat.mod_eq_of_lt (by omega)
    exact congrArg₂ G (Fin.ext hq.symm) rfl
  · refine Finset.sum_congr rfl (fun t _ => Finset.sum_congr rfl (fun d _ => ?_))
    have h1 : (64 * t.val + d.val) / 64 % 256 = t.val := by omega
    have h2 : (64 * t.val + d.val) % 64 = d.val := by omega
    exact congrArg₂ G (Fin.ext h1) (Fin.ext h2)

/-- The sum over bins and columns of the accumulated block's absolute differences is the sum over (t, d, bin). -/
theorem total_eq (X : (⟨3, ![2048, 256, 64]⟩ : Shape).Idx → EReal) (dens : (⟨3, ![256, 64, 64]⟩ : Shape).Idx → EReal)
    (lo hi : (⟨2, ![256, 64]⟩ : Shape).Idx → EReal) :
    Cert.HistSpec.finishK (Cert.HistSpec.accK X lo hi 31) (Cert.HistSpec.densK dens)
      = Cert.HistSpec.total X dens lo hi := by
  have h : ∀ c : Fin 64, ∑ q : Fin 16384,
        eabs (accK X lo hi 31 (ix2 c q) * Ideal.ofBits .f32 0x3A000000#32 - densK dens (ix2 c q))
      = ∑ t : Fin 256, ∑ d : Fin 64,
        eabs (hist X lo hi t d c * Ideal.ofBits .f32 0x3A000000#32 - dens (ix3 t d c)) := by
    intro c
    refine Eq.trans (Finset.sum_congr rfl (fun q _ => ?_))
      (sum_cols (fun t d => eabs (hist X lo hi t d c * Ideal.ofBits .f32 0x3A000000#32 - dens (ix3 t d c))))
    rw [accK_last]
    rfl
  unfold finishK total
  rw [Finset.sum_congr rfl (fun c _ => h c), Finset.sum_comm]
  refine Finset.sum_congr rfl (fun t _ => ?_)
  exact Finset.sum_comm

/-- So the loss read off the accumulated block is the loss. -/
theorem lossK_eq_loss (X : (⟨3, ![2048, 256, 64]⟩ : Shape).Idx → EReal)
    (dens : (⟨3, ![256, 64, 64]⟩ : Shape).Idx → EReal) (lo hi : (⟨2, ![256, 64]⟩ : Shape).Idx → EReal) :
    Cert.HistSpec.lossK X dens lo hi = Cert.HistSpec.loss X dens lo hi := by
  unfold lossK loss
  rw [total_eq]

end Cert.HistAlgebra

end
-- ==== Proof.Claims.lean ====
/-
  The five claims.  Both idealized programs compute, over the extended reals, one function of the four argument
  arrays: the mean absolute difference between the 64-bin histograms of the samples (one histogram per pair (t, d),
  normalised by the 2048 samples) and the given densities.  The kernel reaches it by accumulating 32 tiles of 64
  samples into a [bin, t · 64 + d] block and summing |block · 2⁻¹¹ − densities| at the last tile; the reference by a
  scatter-add of the in-range indicators at the flat position (t · 64 + d) · 64 + bin, a division by 2048 and a sum over
  every axis.  The two meet because a sum of extended reals may be regrouped freely, because every sample's clipped
  bin lies in 0 … 63 so that no update leaves its own (t, d), and because dividing by 2048 is multiplying by 2⁻¹¹ on
  every extended real.  No finiteness of the inputs is used.
-/
import proofs.«148183_j63806034149742_1_alg».proof.Defs
import proofs.«148183_j63806034149742_1_alg».proof.Proof.Gen.Kernel.Frame
import proofs.«148183_j63806034149742_1_alg».proof.Proof.Gen.ReferenceIdeal.Read
import proofs.«148183_j63806034149742_1_alg».proof.Proof.Gen.Pre_finite_inputs
import proofs.«148183_j63806034149742_1_alg».proof.Proof.KernelRun
import proofs.«148183_j63806034149742_1_alg».proof.Proof.RefLoss
import proofs.«148183_j63806034149742_1_alg».proof.Proof.TotalEq

noncomputable section

namespace Cert.Proof.HistClaims

open Idealize.ShloMosaic Idealize.SL.Sem

/-- The word-level kernel runs and leaves its arguments alone. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals both programs end at the histogram loss of the four arguments: the kernel at its
    tile-by-tile form, which is the loss by regrouping sums; the reference at its scatter-add form, which is the loss
    because every sample lands in exactly the bin its clipped position names. -/
theorem algebraic : Cert.algebraic_KernelIdeal_ReferenceIdeal := by
  intro m ρ m' ρ' _ hagree
  refine ⟨fun c => fun _ => Cert.HistSpec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.HistRun.run m ρ)
    funext _
    exact Cert.HistAlgebra.lossK_eq_loss _ _ _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, Cert.RefLoss.val_eq_loss,
      (hagree c).1, (hagree c).2.1, (hagree c).2.2.1, (hagree c).2.2.2]
    rfl

end Cert.Proof.HistClaims

end
-- ==== Proof.lean ====
/- The certificate of the histogram-loss kernel against its jnp reference: the three frames (the two kernels' generated
   frame runs; the reference's straight-line run), the idealization (nothing rewritten), and the equality of the two
   idealized programs' results over the extended reals — proved in Proof/Claims.lean over the specification
   Proof/HistSpec.lean, the kernel's run Proof/KernelRun.lean (inputs: Proof/KernelInputs.lean; the body's stores:
   Proof/KernelPieces.lean), the regrouping of sums Proof/TotalEq.lean and the reference's value Proof/RefLoss.lean —
   behind the witnesses of the programs' stated side conditions. -/
import proofs.«148183_j63806034149742_1_alg».proof.Defs
import proofs.«148183_j63806034149742_1_alg».proof.Proof.Gen.Kernel
import proofs.«148183_j63806034149742_1_alg».proof.Proof.Gen.Kernel.Skeleton
import proofs.«148183_j63806034149742_1_alg».proof.Proof.Gen.Kernel.Launch
import proofs.«148183_j63806034149742_1_alg».proof.Proof.Gen.Kernel.Points
import proofs.«148183_j63806034149742_1_alg».proof.Proof.Gen.Kernel.Frame
import proofs.«148183_j63806034149742_1_alg».proof.Proof.Gen.KernelIdeal
import proofs.«148183_j63806034149742_1_alg».proof.Proof.Gen.KernelIdeal.Skeleton
import proofs.«148183_j63806034149742_1_alg».proof.Proof.Gen.KernelIdeal.Launch
import proofs.«148183_j63806034149742_1_alg».proof.Proof.Gen.KernelIdeal.Points
import proofs.«148183_j63806034149742_1_alg».proof.Proof.Gen.KernelIdeal.Frame
import proofs.«148183_j63806034149742_1_alg».proof.Proof.Gen.ReferenceIdeal
import proofs.«148183_j63806034149742_1_alg».proof.Proof.Gen.ReferenceIdeal.Run
import proofs.«148183_j63806034149742_1_alg».proof.Proof.Gen.ReferenceIdeal.Read
import proofs.«148183_j63806034149742_1_alg».proof.Proof.Gen.Pre_finite_inputs
import Idealize.ShloMosaic.Adequacy
import Idealize.ShloMosaic.Init
import proofs.«148183_j63806034149742_1_alg».proof.Proof.Claims

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    HistClaims.frame_k, HistClaims.frame_ki, HistClaims.frame_ri, HistClaims.preserves, HistClaims.algebraic⟩

end Cert.Proof

end
